-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S50000x3 : Shape := ⟨2, ![50000, 3]⟩
abbrev S100000x128 : Shape := ⟨2, ![100000, 128]⟩
abbrev S131x128 : Shape := ⟨2, ![131, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1000000 : Shape := ⟨1, ![1000000]⟩
abbrev S50000 : Shape := ⟨1, ![50000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S100000x128 : S_.BroadcastsInDim S100000x128 (![] : Fin 0 → Fin S100000x128.rank)
  reducesTo_S100000x128_S_d0_1 : S100000x128.ReducesTo [0, 1] S_
  bcast_S_S131x128 : S_.BroadcastsInDim S131x128 (![] : Fin 0 → Fin S131x128.rank)
  reducesTo_S131x128_S_d0_1 : S131x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S128x128 .f32) (main_arg8 : FVec F S128 .f32) (main_arg9 : FVec F S128x1 .f32) (main_arg10 : FVec F S1 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg9
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_v13 : IVec S_ 1) (main_v16 : IVec S131x128 1) : IVec S_ 1 :=
  let main_c_5 : IVec S_ 1 := constantI S_ 1 1#1
  let main_v17 : IVec S_ 1 := (fun x v => Host.reduce IntOp.andi x v reducesTo_S131x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x3 .f32) (main_arg1 : FVec F S50000x3 .f32) (main_arg2 : FVec F S100000x128 .f32) (main_arg3 : FVec F S131x128 .f32) (main_arg4 : FVec F S128 .f32) (main_arg5 : FVec F S128x128 .f32) (main_arg6 : FVec F S128 .f32) (main_arg7 : FVec F S128x128 .f32) (main_arg8 : FVec F S128 .f32) (main_arg9 : FVec F S128x1 .f32) (main_arg10 : FVec F S1 .f32) (main_arg11 : IVec S1000000 32) (main_arg12 : IVec S1000000 32) (main_arg13 : IVec S50000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S131x128 .f32 := Host.absf main_arg3
  let main_cst_4 : FVec F S_ .f32 := constant S_ .f32 0x7F800000#32
  let main_v15 : FVec F S131x128 .f32 := broadcastInDim S131x128 ![] bcast_S_S131x128 main_cst_4
  let main_v16 : IVec S131x128 1 := cmpf .olt main_v14 main_v15
  fn_part1 (F := F) main_arg4 main_arg5 main_arg6 main_arg7 main_arg8 main_arg9 main_arg10 main_v13 main_v16
-- ==== Kernel.lean ====
abbrev S100000x3 : Shape := ⟨2, ![100000, 3]⟩
abbrev S50000x3 : Shape := ⟨2, ![50000, 3]⟩
abbrev S100000x128 : Shape := ⟨2, ![100000, 128]⟩
abbrev S131x128 : Shape := ⟨2, ![131, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1000000 : Shape := ⟨1, ![1000000]⟩
abbrev S50000 : Shape := ⟨1, ![50000]⟩
abbrev S_ : Shape := ⟨0, ![]⟩
abbrev S1003520 : Shape := ⟨1, ![1003520]⟩
abbrev S1003520x1 : Shape := ⟨2, ![1003520, 1]⟩
abbrev S1003520x128 : Shape := ⟨2, ![1003520, 128]⟩
abbrev S1003520x3 : Shape := ⟨2, ![1003520, 3]⟩
abbrev S3x128 : Shape := ⟨2, ![3, 128]⟩
abbrev S1x128 : Shape := ⟨2, ![1, 128]⟩
abbrev S1x1 : Shape := ⟨2, ![1, 1]⟩
abbrev S245x8x128 : Shape := ⟨3, ![245, 8, 128]⟩
abbrev S4096x128 : Shape := ⟨2, ![4096, 128]⟩
abbrev S4096x3 : Shape := ⟨2, ![4096, 3]⟩
abbrev S4096x1 : Shape := ⟨2, ![4096, 1]⟩
abbrev S1x8x128 : Shape := ⟨3, ![1, 8, 128]⟩
abbrev S8x128 : Shape := ⟨2, ![8, 128]⟩
abbrev S1000000x1 : Shape := ⟨2, ![1000000, 1]⟩

abbrev nBuf : Space → Nat
  | .hbm => 80
  | .vmem => 19
  | .smem => 0
  | _ => 0

abbrev bufTy : (tb : Table) → Fin (tcTables nBuf tb) → BufTy
  | .hbm, ⟨0, _⟩ => ⟨S100000x3, .f32⟩
  | .hbm, ⟨1, _⟩ => ⟨S50000x3, .f32⟩
  | .hbm, ⟨2, _⟩ => ⟨S100000x128, .f32⟩
  | .hbm, ⟨3, _⟩ => ⟨S131x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1000000, .i32⟩
  | .hbm, ⟨12, _⟩ => ⟨S1000000, .i32⟩
  | .hbm, ⟨13, _⟩ => ⟨S50000, .i32⟩
  | .hbm, ⟨14, _⟩ => ⟨S_, .i32⟩
  | .hbm, ⟨15, _⟩ => ⟨S_, .i32⟩
  | .hbm, ⟨16, _⟩ => ⟨S1003520, .i32⟩
  | .hbm, ⟨17, _⟩ => ⟨S_, .i32⟩
  | .hbm, ⟨18, _⟩ => ⟨S_, .i32⟩
  | .hbm, ⟨19, _⟩ => ⟨S1003520, .i32⟩
  | .hbm, ⟨20, _⟩ => ⟨S100000x128, .bf16⟩
  | .hbm, ⟨21, _⟩ => ⟨S_, .i32⟩
  | .hbm, ⟨22, _⟩ => ⟨S1003520, .i32⟩
  | .hbm, ⟨23, _⟩ => ⟨S1003520, .i1⟩
  | .hbm, ⟨24, _⟩ => ⟨S_, .i32⟩
  | .hbm, ⟨25, _⟩ => ⟨S1003520, .i32⟩
  | .hbm, ⟨26, _⟩ => ⟨S1003520, .i32⟩
  | .hbm, ⟨27, _⟩ => ⟨S1003520, .i32⟩
  | .hbm, ⟨28, _⟩ => ⟨S1003520x1, .i32⟩
  | .hbm, ⟨29, _⟩ => ⟨S1003520x128, .bf16⟩
  | .hbm, ⟨30, _⟩ => ⟨S_, .i32⟩
  | .hbm, ⟨31, _⟩ => ⟨S1003520, .i32⟩
  | .hbm, ⟨32, _⟩ => ⟨S1003520, .i1⟩
  | .hbm, ⟨33, _⟩ => ⟨S_, .i32⟩
  | .hbm, ⟨34, _⟩ => ⟨S1003520, .i32⟩
  | .hbm, ⟨35, _⟩ => ⟨S1003520, .i32⟩
  | .hbm, ⟨36, _⟩ => ⟨S1003520, .i32⟩
  | .hbm, ⟨37, _⟩ => ⟨S1003520x1, .i32⟩
  | .hbm, ⟨38, _⟩ => ⟨S1003520x3, .f32⟩
  | .hbm, ⟨39, _⟩ => ⟨S_, .i32⟩
  | .hbm, ⟨40, _⟩ => ⟨S1003520, .i32⟩
  | .hbm, ⟨41, _⟩ => ⟨S1003520, .i1⟩
  | .hbm, ⟨42, _⟩ => ⟨S_, .i32⟩
  | .hbm, ⟨43, _⟩ => ⟨S1003520, .i32⟩
  | .hbm, ⟨44, _⟩ => ⟨S1003520, .i32⟩
  | .hbm, ⟨45, _⟩ => ⟨S1003520, .i32⟩
  | .hbm, ⟨46, _⟩ => ⟨S1003520x1, .i32⟩
  | .hbm, ⟨47, _⟩ => ⟨S1003520x3, .f32⟩
  | .hbm, ⟨48, _⟩ => ⟨S1003520x3, .f32⟩
  | .hbm, ⟨49, _⟩ => ⟨S1003520x3, .bf16⟩
  | .hbm, ⟨50, _⟩ => ⟨S_, .i32⟩
  | .hbm, ⟨51, _⟩ => ⟨S1003520, .i32⟩
  | .hbm, ⟨52, _⟩ => ⟨S1003520, .i1⟩
  | .hbm, ⟨53, _⟩ => ⟨S_, .i32⟩
  | .hbm, ⟨54, _⟩ => ⟨S1003520, .i32⟩
  | .hbm, ⟨55, _⟩ => ⟨S1003520, .i32⟩
  | .hbm, ⟨56, _⟩ => ⟨S1003520, .i32⟩
  | .hbm, ⟨57, _⟩ => ⟨S1003520x1, .i32⟩
  | .hbm, ⟨58, _⟩ => ⟨S1003520, .i32⟩
  | .hbm, ⟨59, _⟩ => ⟨S1003520, .f32⟩
  | .hbm, ⟨60, _⟩ => ⟨S1003520x1, .f32⟩
  | .hbm, ⟨61, _⟩ => ⟨S128x128, .f32⟩
  | .hbm, ⟨62, _⟩ => ⟨S128x128, .bf16⟩
  | .hbm, ⟨63, _⟩ => ⟨S3x128, .f32⟩
  | .hbm, ⟨64, _⟩ => ⟨S3x128, .bf16⟩
  | .hbm, ⟨65, _⟩ => ⟨S1x128, .f32⟩
  | .hbm, ⟨66, _⟩ => ⟨S128x128, .bf16⟩
  | .hbm, ⟨67, _⟩ => ⟨S1x128, .f32⟩
  | .hbm, ⟨68, _⟩ => ⟨S128x128, .bf16⟩
  | .hbm, ⟨69, _⟩ => ⟨S1x128, .f32⟩
  | .hbm, ⟨70, _⟩ => ⟨S128x1, .bf16⟩
  | .hbm, ⟨71, _⟩ => ⟨S1x1, .f32⟩
  | .hbm, ⟨72, _⟩ => ⟨S1003520x1, .f32⟩
  | .hbm, ⟨73, _⟩ => ⟨S245x8x128, .f32⟩
  | .hbm, ⟨74, _⟩ => ⟨S1000000x1, .f32⟩
  | .hbm, ⟨75, _⟩ => ⟨S1000000, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .local _ .vmem, ⟨0, _⟩ => ⟨S4096x128, .bf16⟩
  | .local _ .vmem, ⟨1, _⟩ => ⟨S4096x128, .bf16⟩
  | .local _ .vmem, ⟨2, _⟩ => ⟨S4096x3, .bf16⟩
  | .local _ .vmem, ⟨3, _⟩ => ⟨S4096x3, .bf16⟩
  | .local _ .vmem, ⟨4, _⟩ => ⟨S4096x1, .f32⟩
  | .local _ .vmem, ⟨5, _⟩ => ⟨S4096x1, .f32⟩
  | .local _ .vmem, ⟨6, _⟩ => ⟨S128x128, .bf16⟩
  | .local _ .vmem, ⟨7, _⟩ => ⟨S3x128, .bf16⟩
  | .local _ .vmem, ⟨8, _⟩ => ⟨S1x128, .f32⟩
  | .local _ .vmem, ⟨9, _⟩ => ⟨S128x128, .bf16⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S128x1, .bf16⟩
  | .local _ .vmem, ⟨14, _⟩ => ⟨S1x1, .f32⟩
  | .local _ .vmem, ⟨15, _⟩ => ⟨S4096x1, .f32⟩
  | .local _ .vmem, ⟨16, _⟩ => ⟨S4096x1, .f32⟩
  | .local _ .vmem, ⟨17, _⟩ => ⟨S1x8x128, .f32⟩
  | .local _ .vmem, ⟨18, _⟩ => ⟨S1x8x128, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_c_0 : Ref sig .tc := ⟨.hbm, 17, rfl⟩
abbrev main_call1_v0 : Ref sig .tc := ⟨.hbm, 18, rfl⟩
abbrev main_v1 : Ref sig .tc := ⟨.hbm, 19, rfl⟩
abbrev main_v2 : Ref sig .tc := ⟨.hbm, 20, rfl⟩
abbrev main_c_1 : Ref sig .tc := ⟨.hbm, 21, rfl⟩
abbrev main_v3 : Ref sig .tc := ⟨.hbm, 22, rfl⟩
abbrev main_v4 : Ref sig .tc := ⟨.hbm, 23, rfl⟩
abbrev main_c_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_c_4 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_5 : Ref sig .tc := ⟨.hbm, 39, rfl⟩
abbrev main_v17 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_7 : Ref sig .tc := ⟨.hbm, 50, rfl⟩
abbrev main_v26 : Ref sig .tc := ⟨.hbm, 51, rfl⟩
abbrev main_v27 : Ref sig .tc := ⟨.hbm, 52, rfl⟩
abbrev main_c_8 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46_0 : Ref sig .tc := ⟨.hbm, 72, rfl⟩
abbrev main_v46_1 : Ref sig .tc := ⟨.hbm, 73, rfl⟩
abbrev main_v47 : Ref sig .tc := ⟨.hbm, 74, rfl⟩
abbrev main_v48 : Ref sig .tc := ⟨.hbm, 75, rfl⟩
abbrev main_cst : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  pads_S1000000_S1003520_035200 : S1000000.Pads (![0] : Fin 1 → Nat) ![3520] ![0] S1003520
  h_S_ : 0 < S_.numel
  bitsLt_bf16_f32 : FTy.bits .bf16 < FTy.bits .f32
  bcast_S_S1003520 : S_.BroadcastsInDim S1003520 (![] : Fin 0 → Fin S1003520.rank)
  bcast_S1003520_S1003520x1_0 : S1003520.BroadcastsInDim S1003520x1 (![0] : Fin 1 → Fin S1003520x1.rank)
  shapeCasts_S1003520_S1003520x1 : S1003520.ShapeCasts S1003520x1
  slices_S131x128_S128x128_0_0 : S131x128.Slices ![0, 0] S128x128
  slices_S131x128_S3x128_128_0 : S131x128.Slices ![128, 0] S3x128
  shapeCasts_S128_S1x128 : S128.ShapeCasts S1x128
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x1_d0_w32 : S4096x1.Iotas .tc 32 [0]
  natLt_1_32 : 1 < 32
  reduces_S4096x1_S1 : S4096x1.Reduces [0] S1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S1003520x1_S1000000x1_0_0 : S1003520x1.Slices ![0, 0] S1000000x1
  shapeCasts_S1000000x1_S1000000 : S1000000x1.ShapeCasts S1000000
  reducesTo_S245x8x128_S_d0_1_2 : S245x8x128.ReducesTo [0, 1, 2] S_
  gather_S100000x128_S1003520x1_S1003520x128_1_0_n_n_0_1_1128_wf : GatherDims.WF S100000x128 S1003520x1 S1003520x128 [1] [0] [] [0] [] 1 ![1, 128]
  gather_S50000x3_S1003520x1_S1003520x3_1_0_n_n_0_1_13_wf : GatherDims.WF S50000x3 S1003520x1 S1003520x3 [1] [0] [] [0] [] 1 ![1, 3]
  gather_S100000x3_S1003520x1_S1003520x3_1_0_n_n_0_1_13_wf : GatherDims.WF S100000x3 S1003520x1 S1003520x3 [1] [0] [] [0] [] 1 ![1, 3]
  gather_S50000_S1003520x1_S1003520_n_0_n_n_0_1_1_wf : GatherDims.WF S50000 S1003520x1 S1003520 [] [0] [] [0] [] 1 ![1]
  dot_S4096x128_S128x128_S4096x128_1_0_0_1_n_n_wf : DotDims.WF S4096x128 S128x128 S4096x128 [1] [0] [0] [1] [] []
  dot_S4096x3_S3x128_S4096x128_1_0_0_1_n_n_wf : DotDims.WF S4096x3 S3x128 S4096x128 [1] [0] [0] [1] [] []
  dot_S4096x128_S128x1_S4096x1_1_0_0_1_n_n_wf : DotDims.WF S4096x128 S128x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1003520x128.size a
  hwx0_0 : ∀ i : grid0.Coords, EltTy.bits .bf16 = 32 ∨ (Rect.block (s := S1003520x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S1003520x3.size a
  hwx0_1 : ∀ i : grid0.Coords, EltTy.bits .bf16 = 32 ∨ (Rect.block (s := S1003520x3) S4096x3.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x1.size a ≤ S1003520x1.size a
  hwx0_2 : ∀ i : grid0.Coords, EltTy.bits .f32 = 32 ∨ (Rect.block (s := S1003520x1) S4096x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .bf16 = 32 ∨ (Rect.block (s := S3x128) S3x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .bf16 = 32 ∨ (Rect.block (s := S128x1) S128x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x1.size a ≤ S1003520x1.size a
  hwx0_12 : ∀ i : grid0.Coords, EltTy.bits .f32 = 32 ∨ (Rect.block (s := S1003520x1) S4096x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x8x128.size a ≤ S245x8x128.size a
  hwx0_13 : ∀ i : grid0.Coords, EltTy.bits .f32 = 32 ∨ (Rect.block (s := S245x8x128) S1x8x128.size (cc0_transform_13 i) (hinb0_13 i)).WholeWords (EltTy.packing .f32)

variable [Facts₀]

def gather_S100000x128_S1003520x1_S1003520x128_1_0_n_n_0_1_1128 : GatherDims S100000x128 S1003520x1 S1003520x128 where
  offsetDims := [1]
  collapsedSliceDims := [0]
  operandBatchingDims := []
  startIndicesBatchingDims := []
  startIndexMap := [0]
  indexVectorDim := 1
  sliceSizes := ![1, 128]
  wf := gather_S100000x128_S1003520x1_S1003520x128_1_0_n_n_0_1_1128_wf
def gather_S50000x3_S1003520x1_S1003520x3_1_0_n_n_0_1_13 : GatherDims S50000x3 S1003520x1 S1003520x3 where
  offsetDims := [1]
  collapsedSliceDims := [0]
  operandBatchingDims := []
  startIndicesBatchingDims := []
  startIndexMap := [0]
  indexVectorDim := 1
  sliceSizes := ![1, 3]
  wf := gather_S50000x3_S1003520x1_S1003520x3_1_0_n_n_0_1_13_wf
def gather_S100000x3_S1003520x1_S1003520x3_1_0_n_n_0_1_13 : GatherDims S100000x3 S1003520x1 S1003520x3 where
  offsetDims := [1]
  collapsedSliceDims := [0]
  operandBatchingDims := []
  startIndicesBatchingDims := []
  startIndexMap := [0]
  indexVectorDim := 1
  sliceSizes := ![1, 3]
  wf := gather_S100000x3_S1003520x1_S1003520x3_1_0_n_n_0_1_13_wf
def gather_S50000_S1003520x1_S1003520_n_0_n_n_0_1_1 : GatherDims S50000 S1003520x1 S1003520 where
  offsetDims := []
  collapsedSliceDims := [0]
  operandBatchingDims := []
  startIndicesBatchingDims := []
  startIndexMap := [0]
  indexVectorDim := 1
  sliceSizes := ![1]
  wf := gather_S50000_S1003520x1_S1003520_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x3_S3x128_S4096x128_1_0_0_1_n_n : DotDims S4096x3 S3x128 S4096x128 where
  lhsContracting := [1]
  rhsContracting := [0]
  lhsNonContracting := [0]
  rhsNonContracting := [1]
  lhsBatch := []
  rhsBatch := []
  wf := dot_S4096x3_S3x128_S4096x128_1_0_0_1_n_n_wf
def dot_S4096x128_S128x1_S4096x1_1_0_0_1_n_n : DotDims S4096x128 S128x1 S4096x1 where
  lhsContracting := [1]
  rhsContracting := [0]
  lhsNonContracting := [0]
  rhsNonContracting := [1]
  lhsBatch := []
  rhsBatch := []
  wf := dot_S4096x128_S128x1_S4096x1_1_0_0_1_n_n_wf

abbrev win0_0 : Pipeline.Window sig grid0 :=
  Pipeline.Window.ofSpec (Memref.whole main_v9) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4096x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v43) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v45) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v46_0) S4096x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v46_1) S1x8x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x3 : Shape := ⟨2, ![100000, 3]⟩
abbrev S50000x3 : Shape := ⟨2, ![50000, 3]⟩
abbrev S100000x128 : Shape := ⟨2, ![100000, 128]⟩
abbrev S131x128 : Shape := ⟨2, ![131, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1000000 : Shape := ⟨1, ![1000000]⟩
abbrev S50000 : Shape := ⟨1, ![50000]⟩
abbrev S_ : Shape := ⟨0, ![]⟩
abbrev S1000000x1 : Shape := ⟨2, ![1000000, 1]⟩
abbrev S1000000x3 : Shape := ⟨2, ![1000000, 3]⟩
abbrev S1000000x128 : Shape := ⟨2, ![1000000, 128]⟩
abbrev S1000000x131 : Shape := ⟨2, ![1000000, 131]⟩
abbrev S1x128 : Shape := ⟨2, ![1, 128]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S50000x3, .f32⟩
  | .hbm, ⟨2, _⟩ => ⟨S100000x128, .f32⟩
  | .hbm, ⟨3, _⟩ => ⟨S131x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1000000, .i32⟩
  | .hbm, ⟨12, _⟩ => ⟨S1000000, .i32⟩
  | .hbm, ⟨13, _⟩ => ⟨S50000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x3, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000x3, .f32⟩
  | .hbm, ⟨32, _⟩ => ⟨S1000000x3, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x128, .f32⟩
  | .hbm, ⟨42, _⟩ => ⟨S1000000x131, .f32⟩
  | .hbm, ⟨43, _⟩ => ⟨S1000000x128, .f32⟩
  | .hbm, ⟨44, _⟩ => ⟨S1x128, .f32⟩
  | .hbm, ⟨45, _⟩ => ⟨S1000000x128, .f32⟩
  | .hbm, ⟨46, _⟩ => ⟨S1000000x128, .f32⟩
  | .hbm, ⟨47, _⟩ => ⟨S_, .f32⟩
  | .hbm, ⟨48, _⟩ => ⟨S1000000x128, .f32⟩
  | .hbm, ⟨49, _⟩ => ⟨S1000000x128, .f32⟩
  | .hbm, ⟨50, _⟩ => ⟨S1000000x128, .f32⟩
  | .hbm, ⟨51, _⟩ => ⟨S1x128, .f32⟩
  | .hbm, ⟨52, _⟩ => ⟨S1000000x128, .f32⟩
  | .hbm, ⟨53, _⟩ => ⟨S1000000x128, .f32⟩
  | .hbm, ⟨54, _⟩ => ⟨S_, .f32⟩
  | .hbm, ⟨55, _⟩ => ⟨S1000000x128, .f32⟩
  | .hbm, ⟨56, _⟩ => ⟨S1000000x128, .f32⟩
  | .hbm, ⟨57, _⟩ => ⟨S1000000x128, .f32⟩
  | .hbm, ⟨58, _⟩ => ⟨S1x128, .f32⟩
  | .hbm, ⟨59, _⟩ => ⟨S1000000x128, .f32⟩
  | .hbm, ⟨60, _⟩ => ⟨S1000000x128, .f32⟩
  | .hbm, ⟨61, _⟩ => ⟨S1000000x1, .f32⟩
  | .hbm, ⟨62, _⟩ => ⟨S1x1, .f32⟩
  | .hbm, ⟨63, _⟩ => ⟨S1000000x1, .f32⟩
  | .hbm, ⟨64, _⟩ => ⟨S1000000x1, .f32⟩
  | .hbm, ⟨65, _⟩ => ⟨S1000000, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000, .i32⟩
  | .hbm, ⟨75, _⟩ => ⟨S1000000, .f32⟩
  | .hbm, ⟨76, _⟩ => ⟨S_, .f32⟩
  | .hbm, ⟨77, _⟩ => ⟨S1000000, .f32⟩
  | .hbm, ⟨78, _⟩ => ⟨S1000000, .f32⟩
  | .hbm, ⟨79, _⟩ => ⟨S1000000, .f32⟩
  | .hbm, ⟨80, _⟩ => ⟨S1000000, .f32⟩
  | .hbm, ⟨81, _⟩ => ⟨S1000000, .f32⟩
  | .hbm, ⟨82, _⟩ => ⟨S1000000, .f32⟩
  | .hbm, ⟨83, _⟩ => ⟨S1000000, .f32⟩
  | .hbm, ⟨84, _⟩ => ⟨S1000000, .f32⟩
  | .hbm, ⟨85, _⟩ => ⟨S1000000, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call0_cst : Ref sig .tc := ⟨.hbm, 47, rfl⟩
abbrev main_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_cst : Ref sig .tc := ⟨.hbm, 54, rfl⟩
abbrev main_call1_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_5 : Ref sig .tc := ⟨.hbm, 66, rfl⟩
abbrev main_v42 : Ref sig .tc := ⟨.hbm, 67, rfl⟩
abbrev main_v43 : Ref sig .tc := ⟨.hbm, 68, rfl⟩
abbrev main_c_6 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_7 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x128_S1000000x3_S1000000x131_d1 : Shape.Concatenates [S1000000x128, S1000000x3] S1000000x131 1
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  reducesTo_S1000000_S_d0 : S1000000.ReducesTo [0] S_
  h_S_ : 0 < S_.numel
  gather_S50000x3_S1000000x1_S1000000x3_1_0_n_n_0_1_13_wf : GatherDims.WF S50000x3 S1000000x1 S1000000x3 [1] [0] [] [0] [] 1 ![1, 3]
  gather_S100000x3_S1000000x1_S1000000x3_1_0_n_n_0_1_13_wf : GatherDims.WF S100000x3 S1000000x1 S1000000x3 [1] [0] [] [0] [] 1 ![1, 3]
  gather_S100000x128_S1000000x1_S1000000x128_1_0_n_n_0_1_1128_wf : GatherDims.WF S100000x128 S1000000x1 S1000000x128 [1] [0] [] [0] [] 1 ![1, 128]
  dot_S1000000x131_S131x128_S1000000x128_1_0_0_1_n_n_wf : DotDims.WF S1000000x131 S131x128 S1000000x128 [1] [0] [0] [1] [] []
  dot_S1000000x128_S128x128_S1000000x128_1_0_0_1_n_n_wf : DotDims.WF S1000000x128 S128x128 S1000000x128 [1] [0] [0] [1] [] []
  dot_S1000000x128_S128x1_S1000000x1_1_0_0_1_n_n_wf : DotDims.WF S1000000x128 S128x1 S1000000x1 [1] [0] [0] [1] [] []
  gather_S50000_S1000000x1_S1000000_n_0_n_n_0_1_1_wf : GatherDims.WF S50000 S1000000x1 S1000000 [] [0] [] [0] [] 1 ![1]

variable [Facts₀]

def gather_S50000x3_S1000000x1_S1000000x3_1_0_n_n_0_1_13 : GatherDims S50000x3 S1000000x1 S1000000x3 where
  offsetDims := [1]
  collapsedSliceDims := [0]
  operandBatchingDims := []
  startIndicesBatchingDims := []
  startIndexMap := [0]
  indexVectorDim := 1
  sliceSizes := ![1, 3]
  wf := gather_S50000x3_S1000000x1_S1000000x3_1_0_n_n_0_1_13_wf
def gather_S100000x3_S1000000x1_S1000000x3_1_0_n_n_0_1_13 : GatherDims S100000x3 S1000000x1 S1000000x3 where
  offsetDims := [1]
  collapsedSliceDims := [0]
  operandBatchingDims := []
  startIndicesBatchingDims := []
  startIndexMap := [0]
  indexVectorDim := 1
  sliceSizes := ![1, 3]
  wf := gather_S100000x3_S1000000x1_S1000000x3_1_0_n_n_0_1_13_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def dot_S1000000x131_S131x128_S1000000x128_1_0_0_1_n_n : DotDims S1000000x131 S131x128 S1000000x128 where
  lhsContracting := [1]
  rhsContracting := [0]
  lhsNonContracting := [0]
  rhsNonContracting := [1]
  lhsBatch := []
  rhsBatch := []
  wf := dot_S1000000x131_S131x128_S1000000x128_1_0_0_1_n_n_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf
def gather_S50000_S1000000x1_S1000000_n_0_n_n_0_1_1 : GatherDims S50000 S1000000x1 S1000000 where
  offsetDims := []
  collapsedSliceDims := [0]
  operandBatchingDims := []
  startIndicesBatchingDims := []
  startIndexMap := [0]
  indexVectorDim := 1
  sliceSizes := ![1]
  wf := gather_S50000_S1000000x1_S1000000_n_0_n_n_0_1_1_wf

class Facts : Prop extends Facts₀ where

variable [Facts]
-- ==== Proof.Spec.lean ====
/-
  The network of one edge and its loss, on the extended reals; the specification both programs are compared with.

  An edge `e` has a gathered latent row `lat e · : Fin 128 → EReal`, a relative position `pt e · - ps e ·` (three
  entries) and an occupancy `occ e`. The first layer applies the 131 × 128 input weights to the row "latents, then relative
  position": rows 0 … 127 of the weights meet the latents and rows 128 … 130 the relative position, so the layer is the sum of
  two inner products plus the bias. Two more layers `x ↦ max x 0` followed by weights and bias, and a last inner product with
  the 128 × 1 output weights plus its bias, give the edge's logit `z`. The edge's loss is the binary cross entropy with
  logits in its stable form, `max z 0 - z · occ + log (1 + exp (-|z|))`, with `|z| = max z (-z)`.
-/
import Idealize.ShloMosaic.PureOps.Ideal
import Idealize.ShloMosaic.Lib.ValueIdx

noncomputable section

namespace Cert.EdgeNet

open Idealize.ShloMosaic Idealize.ShloMosaic.ValueIdx

/-- A matrix of extended reals with `a` rows and `b` columns, indexed as the programs' arrays are. -/
abbrev Arr2 (a b : Nat) : Type := (⟨2, ![a, b]⟩ : Shape).Idx → EReal
/-- A vector of extended reals with `a` entries. -/
abbrev Arr1 (a : Nat) : Type := (⟨1, ![a]⟩ : Shape).Idx → EReal

/-- The eight weight arrays, as the argument arrays hold them. -/
structure Weights where
  wIn : Arr2 131 128
  bIn : Arr1 128
  w0 : Arr2 128 128
  b0 : Arr1 128
  w1 : Arr2 128 128
  b1 : Arr1 128
  wOut : Arr2 128 1
  bOut : Arr1 1

/-- Output `j` of the input layer on one edge: the latents against rows 0 … 127 of the input weights, the relative position
    against rows 128 … 130, and the bias. -/
def layerIn (W : Weights) (lat : Fin 128 → EReal) (pr : Fin 3 → EReal) (j : Fin 128) : EReal :=
  ((∑ k : Fin 128, lat k * W.wIn (ix2 (⟨k.val, by omega⟩ : Fin 131) j))
    + ∑ k : Fin 3, pr k * W.wIn (ix2 (⟨128 + k.val, by omega⟩ : Fin 131) j)) + W.bIn (ix1 j)

/-- Output `j` of a 128 → 128 layer: inner product with column `j` of the weights, plus the bias. -/
def layer (w : Arr2 128 128) (b : Arr1 128) (x : Fin 128 → EReal) (j : Fin 128) : EReal :=
  (∑ k : Fin 128, x k * w (ix2 k j)) + b (ix1 j)

/-- The activations entering the output layer: input layer, `max · 0`, first hidden layer, `max · 0`, second hidden layer. -/
def hidden (W : Weights) (lat : Fin 128 → EReal) (pr : Fin 3 → EReal) (j : Fin 128) : EReal :=
  layer W.w1 W.b1 (fun a => max (layer W.w0 W.b0 (fun a' => max (layerIn W lat pr a') 0) a) 0) j

/-- The logit of one edge. -/
def logit (W : Weights) (lat : Fin 128 → EReal) (pr : Fin 3 → EReal) : EReal :=
  (∑ k : Fin 128, hidden W lat pr k * W.wOut (ix2 k (0 : Fin 1))) + W.bOut (ix1 (0 : Fin 1))

/-- Binary cross entropy with logits of one edge, in its stable form. -/
def bce (z occ : EReal) : EReal :=
  (max z 0 - z * occ) + Ideal.log1p (Ideal.exp (-(max z (-z))))

/-- The logit of edge `e` from gathered arrays of `M` edges: latents, target positions, source positions. -/
def zOf (W : Weights) {M : Nat} (lat : Arr2 M 128) (pt ps : Arr2 M 3) (e : Fin M) : EReal :=
  logit W (fun k => lat (ix2 e k)) (fun k => pt (ix2 e k) - ps (ix2 e k))

/-- The mean loss over the 1000000 edges as the reference computes it: zero plus the sum of the edges' losses, divided by the
    word of 1.0e6. -/
def meanLoss (W : Weights) (lat : Arr2 1000000 128) (pt ps : Arr2 1000000 3) (occ : Arr1 1000000) : EReal :=
  Ideal.div (Ideal.ofBits .f32 0x00000000#32 + ∑ e : Fin 1000000, bce (zOf W lat pt ps e) (occ (ix1 e)))
    (Ideal.ofBits .f32 0x49742400#32)

end Cert.EdgeNet

end
-- ==== Proof.KBody.lean ====
/-
  The values the kernel's body stores, read at one entry, at the extended reals.

  One block of the kernel holds 4096 edges. For row `r` of the block the body computes, from the row's 128 latents and its
  three relative-position entries, the input layer (two inner products with the two parts of the input weights, plus the
  bias), then twice `max · 0` followed by a 128 × 128 layer, and from these activations the logit (an inner product with the
  output weights plus the output bias). Narrowing to the 16-bit format is the identity on extended reals, a shape cast to
  the same shape is the identity, a broadcast row reads the row, and a matrix product into a zero accumulator read at one
  entry is the plain sum over the contracted coordinate. So the activations are `hidden` and the logit is `logit` of the
  specification, entry by entry.

  The block's loss entry is the sum over its 4096 rows of the edge's binary cross entropy times a 0/1 mask: the kernel writes
  `0 - |z|` for `-|z|` and `|z| = max z (-z)`; the mask is "block number × 4096 + row < 1000000" computed on 32-bit words, and
  since the block number is below 245 the word arithmetic does not wrap, so the word comparison is the comparison of
  natural numbers. The sum over the rows is then spread over the 8 × 128 entries of the block's result.
-/
import proofs.«121731_j87789131530736_2_alg».proof.Proof.Gen.KernelIdeal.Skeleton
import proofs.«121731_j87789131530736_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Cert.EdgeNet Cert.KernelIdeal Cert.KernelIdeal.Gen Idealize.ShloMosaic Idealize.ShloMosaic.ValueIdx Idealize.ShloMosaic.TcCoe

/-! ## The three matrix products read at an entry -/

/-- Left operand of the [4096,128] by [128,128] product: the row coordinate is the output's. -/
theorem dotHid_lhs0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl

/-- Right operand of the [4096,128] by [128,128] product: the column coordinate is the output's. -/
theorem dotHid_rhs1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The [4096,128] by [128,128] product into a zero accumulator, read at row `r` and column `j`: the inner product of row `r` of the
    left operand with column `j` of the right one. -/
theorem dotHid_apply (a : FVec Ideal S4096x128 .bf16) (w : FVec Ideal S128x128 .bf16) (r : Fin 4096) (j : Fin 128) :
    matmul dot_S4096x128_S128x128_S4096x128_1_0_0_1_n_n none a w (constant (F := Ideal) S4096x128 .f32 0x00000000#32) (ix2 r j)
      = ∑ k : Fin 128, a (ix2 r k) * w (ix2 k j) := by
  show FloatOps.matmul dot_S4096x128_S128x128_S4096x128_1_0_0_1_n_n none a w (constant (F := Ideal) S4096x128 .f32 0x00000000#32) (ix2 r j) = _
  rw [Ideal.matmul_constant_zero_apply,
    ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r j)
      ((contrEquiv1 dot_S4096x128_S128x128_S4096x128_1_0_0_1_n_n 128 rfl rfl).symm k) = ix2 r k :=
    funext fun c => Fin.ext (by
      match c with
      | ⟨0, _⟩ => exact dotHid_lhs0 _ _
      | ⟨1, _⟩ => exact (dot_S4096x128_S128x128_S4096x128_1_0_0_1_n_n.lhsIdx_val_of_single rfl _ _).trans hk)
  have er : dot_S4096x128_S128x128_S4096x128_1_0_0_1_n_n.rhsIdx (ix2 r j)
      ((contrEquiv1 dot_S4096x128_S128x128_S4096x128_1_0_0_1_n_n 128 rfl rfl).symm k) = ix2 k j :=
    funext fun c => Fin.ext (by
      match c with
      | ⟨0, _⟩ => exact (dot_S4096x128_S128x128_S4096x128_1_0_0_1_n_n.rhsIdx_val_of_single rfl _ _).trans hk
      | ⟨1, _⟩ => exact dotHid_rhs1 _ _)
  rw [el, er]

/-- Left operand of the [4096,3] by [3,128] product: the row coordinate is the output's. -/
theorem dotPos_lhs0 (i : S4096x128.Idx) (q : dot_S4096x3_S3x128_S4096x128_1_0_0_1_n_n.contr.Idx) :
    (dot_S4096x3_S3x128_S4096x128_1_0_0_1_n_n.lhsIdx i q 0).val = (i 0).val := by
  unfold DotDims.lhsIdx
  rw [dif_neg (show ¬(0 : Fin S4096x3.rank) ∈ dot_S4096x3_S3x128_S4096x128_1_0_0_1_n_n.lhsBatch by decide),
    dif_pos (show (0 : Fin S4096x3.rank) ∈ dot_S4096x3_S3x128_S4096x128_1_0_0_1_n_n.lhsNonContracting by decide)]
  rfl

/-- Right operand of the [4096,3] by [3,128] product: the column coordinate is the output's. -/
theorem dotPos_rhs1 (i : S4096x128.Idx) (q : dot_S4096x3_S3x128_S4096x128_1_0_0_1_n_n.contr.Idx) :
    (dot_S4096x3_S3x128_S4096x128_1_0_0_1_n_n.rhsIdx i q 1).val = (i 1).val := by
  unfold DotDims.rhsIdx
  rw [dif_neg (show ¬(1 : Fin S3x128.rank) ∈ dot_S4096x3_S3x128_S4096x128_1_0_0_1_n_n.rhsBatch by decide),
    dif_pos (show (1 : Fin S3x128.rank) ∈ dot_S4096x3_S3x128_S4096x128_1_0_0_1_n_n.rhsNonContracting by decide)]
  rfl

/-- The [4096,3] by [3,128] product into a zero accumulator, read at row `r` and column `j`: the inner product of row `r` of the
    left operand with column `j` of the right one. -/
theorem dotPos_apply (a : FVec Ideal S4096x3 .bf16) (w : FVec Ideal S3x128 .bf16) (r : Fin 4096) (j : Fin 128) :
    matmul dot_S4096x3_S3x128_S4096x128_1_0_0_1_n_n none a w (constant (F := Ideal) S4096x128 .f32 0x00000000#32) (ix2 r j)
      = ∑ k : Fin 3, a (ix2 r k) * w (ix2 k j) := by
  show FloatOps.matmul dot_S4096x3_S3x128_S4096x128_1_0_0_1_n_n none a w (constant (F := Ideal) S4096x128 .f32 0x00000000#32) (ix2 r j) = _
  rw [Ideal.matmul_constant_zero_apply,
    ← Equiv.sum_comp (contrEquiv1 dot_S4096x3_S3x128_S4096x128_1_0_0_1_n_n 3 rfl rfl).symm]
  refine Finset.sum_congr rfl fun k _ => ?_
  have hk := contrEquiv1_symm_val dot_S4096x3_S3x128_S4096x128_1_0_0_1_n_n 3 rfl rfl k
  have el : dot_S4096x3_S3x128_S4096x128_1_0_0_1_n_n.lhsIdx (ix2 r j)
      ((contrEquiv1 dot_S4096x3_S3x128_S4096x128_1_0_0_1_n_n 3 rfl rfl).symm k) = ix2 r k :=
    funext fun c => Fin.ext (by
      match c with
      | ⟨0, _⟩ => exact dotPos_lhs0 _ _
      | ⟨1, _⟩ => exact (dot_S4096x3_S3x128_S4096x128_1_0_0_1_n_n.lhsIdx_val_of_single rfl _ _).trans hk)
  have er : dot_S4096x3_S3x128_S4096x128_1_0_0_1_n_n.rhsIdx (ix2 r j)
      ((contrEquiv1 dot_S4096x3_S3x128_S4096x128_1_0_0_1_n_n 3 rfl rfl).symm k) = ix2 k j :=
    funext fun c => Fin.ext (by
      match c with
      | ⟨0, _⟩ => exact (dot_S4096x3_S3x128_S4096x128_1_0_0_1_n_n.rhsIdx_val_of_single rfl _ _).trans hk
      | ⟨1, _⟩ => exact dotPos_rhs1 _ _)
  rw [el, er]

/-- Left operand of the [4096,128] by [128,1] product: the row coordinate is the output's. -/
theorem dotOut_lhs0 (i : S4096x1.Idx) (q : dot_S4096x128_S128x1_S4096x1_1_0_0_1_n_n.contr.Idx) :
    (dot_S4096x128_S128x1_S4096x1_1_0_0_1_n_n.lhsIdx i q 0).val = (i 0).val := by
  unfold DotDims.lhsIdx
  rw [dif_neg (show ¬(0 : Fin S4096x128.rank) ∈ dot_S4096x128_S128x1_S4096x1_1_0_0_1_n_n.lhsBatch by decide),
    dif_pos (show (0 : Fin S4096x128.rank) ∈ dot_S4096x128_S128x1_S4096x1_1_0_0_1_n_n.lhsNonContracting by decide)]
  rfl

/-- Right operand of the [4096,128] by [128,1] product: the column coordinate is the output's. -/
theorem dotOut_rhs1 (i : S4096x1.Idx) (q : dot_S4096x128_S128x1_S4096x1_1_0_0_1_n_n.contr.Idx) :
    (dot_S4096x128_S128x1_S4096x1_1_0_0_1_n_n.rhsIdx i q 1).val = (i 1).val := by
  unfold DotDims.rhsIdx
  rw [dif_neg (show ¬(1 : Fin S128x1.rank) ∈ dot_S4096x128_S128x1_S4096x1_1_0_0_1_n_n.rhsBatch by decide),
    dif_pos (show (1 : Fin S128x1.rank) ∈ dot_S4096x128_S128x1_S4096x1_1_0_0_1_n_n.rhsNonContracting by decide)]
  rfl

/-- The [4096,128] by [128,1] product into a zero accumulator, read at row `r` and column `j`: the inner product of row `r` of the
    left operand with column `j` of the right one. -/
theorem dotOut_apply (a : FVec Ideal S4096x128 .bf16) (w : FVec Ideal S128x1 .bf16) (r : Fin 4096) (j : Fin 1) :
    matmul dot_S4096x128_S128x1_S4096x1_1_0_0_1_n_n none a w (constant (F := Ideal) S4096x1 .f32 0x00000000#32) (ix2 r j)
      = ∑ k : Fin 128, a (ix2 r k) * w (ix2 k j) := by
  show FloatOps.matmul dot_S4096x128_S128x1_S4096x1_1_0_0_1_n_n none a w (constant (F := Ideal) S4096x1 .f32 0x00000000#32) (ix2 r j) = _
  rw [Ideal.matmul_constant_zero_apply,
    ← Equiv.sum_comp (contrEquiv1 dot_S4096x128_S128x1_S4096x1_1_0_0_1_n_n 128 rfl rfl).symm]
  refine Finset.sum_congr rfl fun k _ => ?_
  have hk := contrEquiv1_symm_val dot_S4096x128_S128x1_S4096x1_1_0_0_1_n_n 128 rfl rfl k
  have el : dot_S4096x128_S128x1_S4096x1_1_0_0_1_n_n.lhsIdx (ix2 r j)
      ((contrEquiv1 dot_S4096x128_S128x1_S4096x1_1_0_0_1_n_n 128 rfl rfl).symm k) = ix2 r k :=
    funext fun c => Fin.ext (by
      match c with
      | ⟨0, _⟩ => exact dotOut_lhs0 _ _
      | ⟨1, _⟩ => exact (dot_S4096x128_S128x1_S4096x1_1_0_0_1_n_n.lhsIdx_val_of_single rfl _ _).trans hk)
  have er : dot_S4096x128_S128x1_S4096x1_1_0_0_1_n_n.rhsIdx (ix2 r j)
      ((contrEquiv1 dot_S4096x128_S128x1_S4096x1_1_0_0_1_n_n 128 rfl rfl).symm k) = ix2 k j :=
    funext fun c => Fin.ext (by
      match c with
      | ⟨0, _⟩ => exact (dot_S4096x128_S128x1_S4096x1_1_0_0_1_n_n.rhsIdx_val_of_single rfl _ _).trans hk
      | ⟨1, _⟩ => exact dotOut_rhs1 _ _)
  rw [el, er]

/-! ## Pointwise operations and layout operations read at an entry -/

/-- An absolute value at an index is `max a (-a)` of the element. -/
theorem absf_at {s : Shape} {φ : FTy} (a : FVec Ideal s φ) (i : s.Idx) : absf a i = max (a i) (-(a i)) := rfl
/-- An exponential at an index is the exponential of the element. -/
theorem exp_at {s : Shape} {φ : FTy} (a : FVec Ideal s φ) (i : s.Idx) : exp a i = Ideal.exp (a i) := rfl
/-- `log (1 + ·)` at an index is that of the element. -/
theorem log1p_at {s : Shape} {φ : FTy} (a : FVec Ideal s φ) (i : s.Idx) : log1p a i = Ideal.log1p (a i) := rfl
/-- An integer sum at an index is the sum of the words. -/
theorem addi_at {s : Shape} {w : Nat} (a b : IVec s w) (i : s.Idx) : addi a b i = IntOp.addi (a i) (b i) := rfl
/-- An integer comparison at an index compares the words. -/
theorem cmpi_at {s : Shape} {w : Nat} (p : CmpIPredicate) (a b : IVec s w) (i : s.Idx) :
    cmpi p a b i = IntOp.cmpi p (a i) (b i) := rfl

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The sum over the rows of a `[4096, 1]` column, as the reduction over axis 0 gives it: no initial term. -/
theorem colSum_apply (src : FVec Ideal S4096x1 .f32) (h : S4096x1.Reduces [0] S1) (hφ : FKind.Formats .f32)
    (hacc : (0x00000000#32 : BitVec 32) = 0x00000000#32) :
    multiReduction (F := Ideal) .add [0] S1 src 0x00000000#32 h hφ hacc (ix1 (0 : Fin 1))
      = ∑ r : Fin 4096, src (ix2 r (0 : Fin 1)) := by
  refine (Ideal.multiReduction_add_single src 0x00000000#32 h hφ hacc (ix1 (0 : Fin 1))).trans ?_
  refine Finset.sum_congr rfl fun k _ => congrArg src ?_
  funext c
  apply Fin.ext
  match c with
  | ⟨0, _⟩ => rfl
  | ⟨1, _⟩ => rfl

/-! ## The activations entering the output layer -/

/-- The body's activations at row `r`, column `j`, in the kernel's own arrays: three layers of inner products, biases and
    `max · 0`. -/
theorem pay3_arrays (x0 : Vec Ideal S4096x128 .bf16) (x1 : Vec Ideal S4096x3 .bf16)
    (x3 : Vec Ideal S128x128 .bf16) (x4 : Vec Ideal S3x128 .bf16) (x5 : Vec Ideal S1x128 .f32)
    (x6 : Vec Ideal S128x128 .bf16) (x7 : Vec Ideal S1x128 .f32) (x8 : Vec Ideal S128x128 .bf16) (x9 : Vec Ideal S1x128 .f32) (r : Fin 4096) (j : Fin 128) :
    k0_pay3 (F := Ideal) x0 x1 x3 x4 x5 x6 x7 x8 x9 (ix2 r j)
      = (∑ k : Fin 128,
          max ((∑ k' : Fin 128,
              max (((∑ a : Fin 128, x0 (ix2 r a) * x3 (ix2 a k')) + ∑ a : Fin 3, x1 (ix2 r a) * x4 (ix2 a k'))
                + x5 (ix2 (0 : Fin 1) k')) 0 * x6 (ix2 k' k)) + x7 (ix2 (0 : Fin 1) k)) 0 * x8 (ix2 k j))
        + x9 (ix2 (0 : Fin 1) j) := by
  unfold k0_pay3
  simp only [addf_apply, maximumf_apply, truncf_apply, broadcast_apply, shapeCast_self, dotHid_apply, dotPos_apply,
    broadcastTo_1b_ab_apply, Ideal.ofBits_def, Ideal.ofBits_zero_f32]

/-- The body's activations at row `r`, column `j` are the specification's `hidden` on the row's latents and relative
    position, when the kernel's weight arrays hold the weights. -/
theorem pay3_apply (x0 : Vec Ideal S4096x128 .bf16) (x1 : Vec Ideal S4096x3 .bf16)
    (x3 : Vec Ideal S128x128 .bf16) (x4 : Vec Ideal S3x128 .bf16) (x5 : Vec Ideal S1x128 .f32)
    (x6 : Vec Ideal S128x128 .bf16) (x7 : Vec Ideal S1x128 .f32) (x8 : Vec Ideal S128x128 .bf16) (x9 : Vec Ideal S1x128 .f32)
    (W : Weights)
    (h3 : ∀ (k j : Fin 128), x3 (ix2 k j) = W.wIn (ix2 (⟨k.val, by omega⟩ : Fin 131) j))
    (h4 : ∀ (k : Fin 3) (j : Fin 128), x4 (ix2 k j) = W.wIn (ix2 (⟨128 + k.val, by omega⟩ : Fin 131) j))
    (h5 : ∀ j : Fin 128, x5 (ix2 (0 : Fin 1) j) = W.bIn (ix1 j))
    (h6 : ∀ (k j : Fin 128), x6 (ix2 k j) = W.w0 (ix2 k j)) (h7 : ∀ j : Fin 128, x7 (ix2 (0 : Fin 1) j) = W.b0 (ix1 j))
    (h8 : ∀ (k j : Fin 128), x8 (ix2 k j) = W.w1 (ix2 k j)) (h9 : ∀ j : Fin 128, x9 (ix2 (0 : Fin 1) j) = W.b1 (ix1 j))
    (r : Fin 4096) (j : Fin 128) :
    k0_pay3 (F := Ideal) x0 x1 x3 x4 x5 x6 x7 x8 x9 (ix2 r j)
      = hidden W (fun k => x0 (ix2 r k)) (fun k => x1 (ix2 r k)) j := by
  rw [pay3_arrays]
  simp only [Cert.EdgeNet.hidden, Cert.EdgeNet.layer, Cert.EdgeNet.layerIn, h3, h4, h5, h6, h7, h8, h9]

/-! ## The logit -/

/-- The stored logit column at row `r`, for any activations: their inner product with the output weights, plus the
    output bias. -/
theorem pay1_arrays (v34 : FVec Ideal S4096x128 .f32) (x10 : Vec Ideal S128x1 .bf16) (x11 : Vec Ideal S1x1 .f32) (r : Fin 4096) :
    k0_pay1 (F := Ideal) v34 x10 x11 (ix2 r (0 : Fin 1))
      = (∑ k : Fin 128, v34 (ix2 r k) * x10 (ix2 k (0 : Fin 1))) + x11 (ix2 (0 : Fin 1) (0 : Fin 1)) := by
  unfold k0_pay1
  simp only [addf_apply, truncf_apply, shapeCast_self, dotOut_apply, broadcastTo_1b_ab_apply]

/-- The stored logit at row `r` is the specification's `logit` on the row's latents and relative position. -/
theorem pay1_apply (x0 : Vec Ideal S4096x128 .bf16) (x1 : Vec Ideal S4096x3 .bf16)
    (x3 : Vec Ideal S128x128 .bf16) (x4 : Vec Ideal S3x128 .bf16) (x5 : Vec Ideal S1x128 .f32)
    (x6 : Vec Ideal S128x128 .bf16) (x7 : Vec Ideal S1x128 .f32) (x8 : Vec Ideal S128x128 .bf16) (x9 : Vec Ideal S1x128 .f32)
    (x10 : Vec Ideal S128x1 .bf16) (x11 : Vec Ideal S1x1 .f32)
    (W : Weights)
    (h3 : ∀ (k j : Fin 128), x3 (ix2 k j) = W.wIn (ix2 (⟨k.val, by omega⟩ : Fin 131) j))
    (h4 : ∀ (k : Fin 3) (j : Fin 128), x4 (ix2 k j) = W.wIn (ix2 (⟨128 + k.val, by omega⟩ : Fin 131) j))
    (h5 : ∀ j : Fin 128, x5 (ix2 (0 : Fin 1) j) = W.bIn (ix1 j))
    (h6 : ∀ (k j : Fin 128), x6 (ix2 k j) = W.w0 (ix2 k j)) (h7 : ∀ j : Fin 128, x7 (ix2 (0 : Fin 1) j) = W.b0 (ix1 j))
    (h8 : ∀ (k j : Fin 128), x8 (ix2 k j) = W.w1 (ix2 k j)) (h9 : ∀ j : Fin 128, x9 (ix2 (0 : Fin 1) j) = W.b1 (ix1 j))
    (h10 : ∀ k : Fin 128, x10 (ix2 k (0 : Fin 1)) = W.wOut (ix2 k (0 : Fin 1)))
    (h11 : x11 (ix2 (0 : Fin 1) (0 : Fin 1)) = W.bOut (ix1 (0 : Fin 1)))
    (r : Fin 4096) :
    k0_pay1 (F := Ideal) (k0_pay3 x0 x1 x3 x4 x5 x6 x7 x8 x9) x10 x11 (ix2 r (0 : Fin 1))
      = logit W (fun k => x0 (ix2 r k)) (fun k => x1 (ix2 r k)) := by
  rw [pay1_arrays, h11]
  unfold logit
  refine congrArg (· + W.bOut (ix1 (0 : Fin 1))) (Finset.sum_congr rfl fun k _ => ?_)
  rw [pay3_apply x0 x1 x3 x4 x5 x6 x7 x8 x9 W h3 h4 h5 h6 h7 h8 h9 r k, h10 k]

/-! ## The mask: a row of block `n` is an edge exactly when `4096 · n + r < 1000000` -/

/-- A 32-bit word of a number below `2 ^ 31`, read signed, is the number. -/
theorem toInt_ofNat_small (m : Nat) (hm : m < 2147483648) : (BitVec.ofNat 32 m).toInt = (m : Int) := by
  rw [BitVec.toInt_eq_toNat_cond, BitVec.toNat_ofNat]
  have e : m % 2 ^ 32 = m := Nat.mod_eq_of_lt (by omega)
  rw [e, if_pos (by omega)]

/-- The word `n · 4096 + r` does not wrap when `n < 245` and `r < 4096`. -/
theorem rowWord_eq (n : Nat) (hn : n < 245) (r : Fin 4096) :
    IntOp.addi (Scalar.muli (BitVec.ofNat 32 n) 4096#32) (BitVec.ofNat 32 r.val) = BitVec.ofNat 32 (4096 * n + r.val) := by
  show BitVec.ofNat 32 n * 4096#32 + BitVec.ofNat 32 r.val = BitVec.ofNat 32 (4096 * n + r.val)
  apply BitVec.eq_of_toNat_eq
  rw [BitVec.toNat_add, BitVec.toNat_mul, BitVec.toNat_ofNat, BitVec.toNat_ofNat, BitVec.toNat_ofNat, BitVec.toNat_ofNat]
  have := r.isLt
  omega

/-- The mask's word at row `r` of block `n`: the signed comparison of `n · 4096 + r` with `1000000`, widened to 32 bits,
    is `1` when the row is an edge and `0` otherwise. -/
theorem maskWord_eq (n : Nat) (hn : n < 245) (r : Fin 4096) :
    ((IntOp.cmpi .slt (IntOp.addi (Scalar.muli (BitVec.ofNat 32 n) 4096#32) (BitVec.ofNat 32 r.val)) 1000000#32).setWidth 32 : BitVec 32)
      = if 4096 * n + r.val < 1000000 then 1#32 else 0#32 := by
  rw [rowWord_eq n hn r]
  have hr := r.isLt
  have hx : (BitVec.ofNat 32 (4096 * n + r.val)).toInt = ((4096 * n + r.val : Nat) : Int) :=
    toInt_ofNat_small _ (by omega)
  have hy : (1000000#32 : BitVec 32).toInt = (1000000 : Int) := by decide
  show (BitVec.ofBool ((BitVec.ofNat 32 (4096 * n + r.val)).slt 1000000#32)).setWidth 32 = _
  unfold BitVec.slt
  rw [hx, hy]
  by_cases h : 4096 * n + r.val < 1000000
  · rw [if_pos h, decide_eq_true (by omega)]; rfl
  · rw [if_neg h, decide_eq_false (by omega)]; rfl

/-- The mask entry at row `r` of block `n`, as an extended real: `1` on an edge's row, `0` on a padding row. -/
theorem mask_apply (n : Nat) (hn : n < 245) (r : Fin 4096) (hi : S4096x1.Iotas .tc 32 [0]) (hw : 1 < 32) :
    (sitofp (F := Ideal) .f32
        (extui 32 (cmpi .slt (addi (broadcast S4096x1 (Scalar.muli (BitVec.ofNat 32 n) 4096#32)) (iota .tc S4096x1 32 [0] hi))
          (broadcast S4096x1 1000000#32)) hw) : FVec Ideal S4096x1 .f32) (ix2 r (0 : Fin 1))
      = if 4096 * n + r.val < 1000000 then (1 : EReal) else 0 := by
  rw [sitofp_apply, extui_apply, cmpi_at, addi_at, broadcast_apply, broadcast_apply, iota_single_apply]
  show FloatOps.sitofp (F := Ideal) .f32
      ((IntOp.cmpi .slt (IntOp.addi (Scalar.muli (BitVec.ofNat 32 n) 4096#32) (BitVec.ofNat 32 r.val)) 1000000#32).setWidth 32) = _
  rw [maskWord_eq n hn r]
  by_cases h : 4096 * n + r.val < 1000000
  · rw [if_pos h, if_pos h]
    show (((1#32 : BitVec 32).toInt : ℝ) : EReal) = 1
    have e : (1#32 : BitVec 32).toInt = 1 := by decide
    rw [e]; simp
  · rw [if_neg h, if_neg h]
    show (((0#32 : BitVec 32).toInt : ℝ) : EReal) = 0
    have e : (0#32 : BitVec 32).toInt = 0 := by decide
    rw [e]; simp

/-! ## The block's loss entry -/

/-- The block's result at any of its 8 × 128 entries, for any logit inputs: the sum over the rows of the edge's loss at
    the stored logit times the mask. -/
theorem pay2_arrays (n : Nat) (hn : n < 245) (v34 : FVec Ideal S4096x128 .f32) (x10 : Vec Ideal S128x1 .bf16)
    (x11 : Vec Ideal S1x1 .f32) (x2 : Vec Ideal S4096x1 .f32) (a : Fin 8) (b : Fin 128) :
    k0_pay2 (F := Ideal) (BitVec.ofNat 32 n) v34 x10 x11 x2 (ix3 (0 : Fin 1) a b)
      = ∑ r : Fin 4096, bce (k0_pay1 (F := Ideal) v34 x10 x11 (ix2 r (0 : Fin 1))) (x2 (ix2 r (0 : Fin 1)))
          * (if 4096 * n + r.val < 1000000 then (1 : EReal) else 0) := by
  unfold k0_pay2
  simp only [shapeCast_ab_1ab_apply, broadcastTo_11_ab_apply, shapeCast_self, shapeCast_a_1a_apply]
  refine (colSum_apply _ _ _ _).trans ?_
  refine Finset.sum_congr rfl fun r _ => ?_
  rw [mulf_apply, mask_apply n hn r]
  refine congrArg (· * (if 4096 * n + r.val < 1000000 then (1 : EReal) else 0)) ?_
  simp only [addf_apply, subf_apply, mulf_apply, maximumf_apply, broadcast_apply, shapeCast_self, absf_at, exp_at, log1p_at,
    Ideal.ofBits_def, Ideal.ofBits_zero_f32]
  unfold bce
  rw [sub_eq_add_neg (0 : EReal), zero_add]

/-- The block's result at any of its 8 × 128 entries: the sum over the block's rows of the edge's binary cross entropy at
    the specification's logit, counted only for rows that are edges. -/
theorem pay2_apply (x0 : Vec Ideal S4096x128 .bf16) (x1 : Vec Ideal S4096x3 .bf16)
    (x3 : Vec Ideal S128x128 .bf16) (x4 : Vec Ideal S3x128 .bf16) (x5 : Vec Ideal S1x128 .f32)
    (x6 : Vec Ideal S128x128 .bf16) (x7 : Vec Ideal S1x128 .f32) (x8 : Vec Ideal S128x128 .bf16) (x9 : Vec Ideal S1x128 .f32)
    (x10 : Vec Ideal S128x1 .bf16) (x11 : Vec Ideal S1x1 .f32) (x2 : Vec Ideal S4096x1 .f32)
    (W : Weights)
    (h3 : ∀ (k j : Fin 128), x3 (ix2 k j) = W.wIn (ix2 (⟨k.val, by omega⟩ : Fin 131) j))
    (h4 : ∀ (k : Fin 3) (j : Fin 128), x4 (ix2 k j) = W.wIn (ix2 (⟨128 + k.val, by omega⟩ : Fin 131) j))
    (h5 : ∀ j : Fin 128, x5 (ix2 (0 : Fin 1) j) = W.bIn (ix1 j))
    (h6 : ∀ (k j : Fin 128), x6 (ix2 k j) = W.w0 (ix2 k j)) (h7 : ∀ j : Fin 128, x7 (ix2 (0 : Fin 1) j) = W.b0 (ix1 j))
    (h8 : ∀ (k j : Fin 128), x8 (ix2 k j) = W.w1 (ix2 k j)) (h9 : ∀ j : Fin 128, x9 (ix2 (0 : Fin 1) j) = W.b1 (ix1 j))
    (h10 : ∀ k : Fin 128, x10 (ix2 k (0 : Fin 1)) = W.wOut (ix2 k (0 : Fin 1)))
    (h11 : x11 (ix2 (0 : Fin 1) (0 : Fin 1)) = W.bOut (ix1 (0 : Fin 1)))
    (n : Nat) (hn : n < 245) (a : Fin 8) (b : Fin 128) :
    k0_pay2 (F := Ideal) (BitVec.ofNat 32 n) (k0_pay3 x0 x1 x3 x4 x5 x6 x7 x8 x9) x10 x11 x2 (ix3 (0 : Fin 1) a b)
      = ∑ r : Fin 4096, bce (logit W (fun k => x0 (ix2 r k)) (fun k => x1 (ix2 r k))) (x2 (ix2 r (0 : Fin 1)))
          * (if 4096 * n + r.val < 1000000 then (1 : EReal) else 0) := by
  rw [pay2_arrays n hn]
  refine Finset.sum_congr rfl fun r _ => ?_
  rw [pay1_apply x0 x1 x3 x4 x5 x6 x7 x8 x9 x10 x11 W h3 h4 h5 h6 h7 h8 h9 h10 h11 r]

end Cert.KernelIdeal.Body

end
-- ==== Proof.Rows.lean ====
/-
  Which row of a table a gathered edge reads. A start index is read as jnp reads it — a negative index counts from the end, so
  `v` becomes `v + N` when `v < 0` (signed) — then as a signed integer clamped into `[0, N - 1]`, the clamp of
  `stablehlo.gather` for a slice of one row. Both programs compute this row from the same index arrays.
-/
import Idealize.ShloMosaic.Lib.ValueIdx

namespace Cert.EdgeNet

open Idealize.ShloMosaic

/-- A start index with jnp's wrap of a negative index: `v + N` if `v < 0` (signed), else `v`; `Nw` is the word of `N`. -/
def normIdx (Nw v : BitVec 32) : BitVec 32 :=
  Scalar.select (IntOp.cmpi .slt v 0#32) (IntOp.addi v Nw) v

/-- The row of an `N`-row table that start index `v` reads: wrapped, read signed, clamped into `[0, N - 1]`. -/
def rowOf (N : Nat) (hN : 0 < N) (Nw v : BitVec 32) : Fin N :=
  ⟨min (normIdx Nw v).toInt.toNat (N - 1), by omega⟩

end Cert.EdgeNet
-- ==== Proof.LibGatherRows.lean ====
/-
  ROW LOOKUPS READ AT AN INDEX: two general facts about `stablehlo.gather`.

  A lookup `x[idx]` of whole rows, with the row numbers given as an integer column `idx : [M, 1]`, is a gather whose
  start index map names operand axis 0 only, whose index vector sits on axis 1 of the start indices (of extent 1: one
  scalar per start index), and whose slice is one row:

  * ROWS OF A MATRIX `x : [N, D]`: offset_dims `[1]`, collapsed_slice_dims `[0]`, start_index_map `[0]`,
    index_vector_dim `1`, slice_sizes `[1, D]`, result `[M, D]` (`rowsDims`, `gather_rows_apply`);
  * ENTRIES OF A VECTOR `x : [N]`: offset_dims `[]`, collapsed_slice_dims `[0]`, start_index_map `[0]`,
    index_vector_dim `1`, slice_sizes `[1]`, result `[M]` (`elemsDims`, `gather_elems_apply`).

  In both, result row `e` reads operand row `idx[e, 0]`, the start index read as a SIGNED integer and clamped into
  `[0, N − 1]`: the slice is one row high, so the largest start at which it fits is `N − 1`. In the matrix case, entry
  `(e, k)` of the result is entry `k` of that row: operand axis 1 is not named by the start index map, so its slice starts
  at `0` (no clamp is involved on that axis), it is not a batching axis, and it is the one kept axis, read by the
  result's one offset axis, whose coordinate is `k`.

  The operand index of a gather is, per operand axis, `start + batch coordinate + offset coordinate`
  (`GatherDims.operandIdx`); the three general lemmas first in the file open each summand's case split once.
-/
import Idealize.ShloMosaic.Lib.ValueIdx

noncomputable section

namespace Cert.Lib

open Idealize.ShloMosaic Idealize.ShloMosaic.ValueIdx

/-! ## The summands of a gather's operand index, case by case -/

section Summands
variable {s si t : Shape} (d : GatherDims s si t)

/-- On an operand axis that the start index map does not name, the slice starts at `0`. -/
theorem gather_start_of_not_mem {w : Nat} (j : t.Idx) (idx : IVec si w) (a : Fin s.rank) (ha : a ∉ d.startIndexMap) :
    d.start j idx a = 0 := by
  unfold GatherDims.start; rw [dif_neg ha]

/-- On an operand axis that the start index map names, the slice starts at that axis's component of the start index,
    read signed and clamped so that the slice fits. -/
theorem gather_start_of_mem {w : Nat} (j : t.Idx) (idx : IVec si w) (a : Fin s.rank) (ha : a ∈ d.startIndexMap) :
    d.start j idx a
      = min (idx (d.siIdx j ⟨d.startIndexMap.idxOf a, List.idxOf_lt_length_iff.2 ha⟩)).toInt.toNat
          (s.size a - d.sliceSizes a) := by
  unfold GatherDims.start; rw [dif_pos ha]

/-- On a kept operand axis (neither collapsed nor batching) the offset coordinate is the result's coordinate on the
    offset axis in the same position. -/
theorem gather_offCoord_of_mem (j : t.Idx) (a : Fin s.rank) (ha : a ∈ d.sKept) :
    d.offCoord j a
      = (j (d.offsetDims[d.sKept.idxOf a]'(by rw [d.offset_length]; exact List.idxOf_lt_length_iff.2 ha))).val := by
  unfold GatherDims.offCoord; rw [dif_pos ha]

end Summands

/-- In `Fin 2`, `1 ≠ 0`. -/
theorem fin2_one_ne_zero : (1 : Fin 2) ≠ 0 := by decide

/-! ## Rows of a matrix -/

section Rows
variable {α : Type}

/-- The dimension numbers of a row lookup: operand `[N, D]`, start indices `[M, 1]`, result `[M, D]`; their
    conditions `wf` are decided on a program's literal shapes. -/
abbrev rowsDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE ROW LOOKUP READ AT `(e, k)`: entry `k` of the operand's row `idx[e, 0]`, that start index read signed and
    clamped into `[0, N − 1]`. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowsDims N D M wf) x idx (ix2 e k)
      = x (ix2 (⟨min (idx (ix2 e (0 : Fin 1))).toInt.toNat (N - 1), by omega⟩ : Fin N) k) := by
  unfold Host.gather
  congr 1
  funext a
  match a with
  | ⟨0, _⟩ =>
    -- axis 0: the clamped start index, no batch coordinate, no offset coordinate (the axis is collapsed)
    refine Fin.ext ?_
    show (rowsDims N D M wf).start (ix2 e k) idx 0 + (rowsDims N D M wf).batchCoord (ix2 e k) 0
      + (rowsDims N D M wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D M wf).startIndexMap from List.mem_singleton.mpr rfl)]
    have hsi : (rowsDims N D M wf).siIdx (ix2 e k) ⟨List.idxOf (0 : Fin 2) (rowsDims N D M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batch coordinate, offset coordinate k (the one kept axis)
    refine Fin.ext ?_
    have h1 : (1 : Fin 2) ∉ (rowsDims N D M wf).startIndexMap :=
      fun h => fin2_one_ne_zero (List.mem_singleton.mp h)
    have hk : (1 : Fin 2) ∈ (rowsDims N D M wf).sKept :=
      (GatherDims.mem_sKept _ _).mpr ⟨fun h => fin2_one_ne_zero (List.mem_singleton.mp h), List.not_mem_nil⟩
    have hs : (rowsDims N D M wf).start (ix2 e k) idx 1 = 0 := gather_start_of_not_mem _ _ _ _ h1
    have hb : (rowsDims N D M wf).batchCoord (ix2 e k) 1 = 0 :=
      GatherDims.batchCoord_eq_zero _ _ _ List.not_mem_nil
    have ho : (rowsDims N D M wf).offCoord (ix2 e k) 1 = k.val :=
      (gather_offCoord_of_mem _ _ _ hk).trans rfl
    show (rowsDims N D M wf).start (ix2 e k) idx 1 + (rowsDims N D M wf).batchCoord (ix2 e k) 1
      + (rowsDims N D M wf).offCoord (ix2 e k) 1 = k.val
    rw [hs, hb, ho, Nat.add_zero, Nat.zero_add]

end Rows

/-! ## Entries of a vector -/

section Elems
variable {α : Type}

/-- The dimension numbers of an entry lookup: operand `[N]`, start indices `[M, 1]`, result `[M]`; their conditions
    `wf` are decided on a program's literal shapes. -/
abbrev elemsDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE ENTRY LOOKUP READ AT `e`: the operand's entry `idx[e, 0]`, that start index read signed and clamped into
    `[0, N − 1]`. -/
theorem gather_elems_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (elemsDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (elemsDims N M wf).start (ix1 e) idx 0 + (elemsDims N M wf).batchCoord (ix1 e) 0
    + (elemsDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemsDims N M wf).startIndexMap from List.mem_singleton.mpr rfl)]
  have hsi : (elemsDims N M wf).siIdx (ix1 e) ⟨List.idxOf (0 : Fin 1) (elemsDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Elems

end Cert.Lib

end
-- ==== Proof.KHost.lean ====
/-
  WHAT THE CALL READS: the twelve arrays the program prepares on the host before its one kernel call, read at a row.

  The program gets a table of latent rows, two tables of positions, an occupancy table, two index arrays of
  1000000 edges (a row number and a column number per edge) and the weights of a three-layer network. Before the
  call it builds, from these:

  * per edge, the latent row of the edge's column node, the difference of the two positions (row node minus column
    node) and the occupancy of the row node as a real number. The edge arrays are first padded with 3520 trailing
    zeros to 1003520 = 245 * 4096 entries; every entry v of a padded index array is moved to v + N when it is
    negative (N the number of rows of the table it indexes), and the lookup then reads the row with that number,
    read as a signed integer and clamped into [0, N - 1]. At an edge e < 1000000 the padded array still holds the
    edge's own index, so the row read is the row of module Rows at that index;
  * the first weight matrix cut into its first 128 rows (for the latent part) and its last 3 rows (for the
    position part), the other weights unchanged, and the four bias vectors as one-row matrices.

  Every narrowing to a 16-bit format the program performs on the way is the identity on extended reals. Each array
  is first written as one expression in the launch arguments (the theorems named ..._eq), then read at an index
  (the theorems named ..._row and ..._at).
-/
import proofs.«121731_j87789131530736_2_alg».proof.Proof.Gen.KernelIdeal.Launch
import proofs.«121731_j87789131530736_2_alg».proof.Proof.Rows
import proofs.«121731_j87789131530736_2_alg».proof.Proof.LibGatherRows
import Idealize.ShloMosaic.Lib.StableHlo.Run
import Idealize.ShloMosaic.Lib.Pipeline.Value
import Idealize.ShloMosaic.Lib.ValueLayout
import Idealize.ShloMosaic.Lib.KernelVsHost
import Idealize.ShloMosaic.Lib.ValueIdx

noncomputable section

namespace Cert.KernelIdeal.HostIn

open Cert.EdgeNet Cert.Lib Cert.KernelIdeal Cert.KernelIdeal.Gen
open Idealize.ShloMosaic Idealize.ShloMosaic.ValueIdx Idealize.ShloMosaic.TcCoe Idealize.ShloMosaic.StableHlo
open Idealize.SL Idealize.SL.Sem

/-! ## Two index facts -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The start indices of a row lookup -/

/-- An index array of 1000000 entries followed by 3520 zeros. -/
def padIdx (x : IVec S1000000 32) : IVec S1003520 32 :=
  pad S1003520 ![0] ![3520] ![0] x (constantI S_ 32 0#32) pads_S1000000_S1003520_035200 h_S_

/-- The start indices of a row lookup in a table of `N` rows (`Nw` the word of `N`): the padded index array,
    every negative entry moved up by `N`, as a column. -/
def startIdx (x : IVec S1000000 32) (Nw : BitVec 32) : IVec S1003520x1 32 :=
  broadcastInDim S1003520x1 ![0] bcast_S1003520_S1003520x1_0
    (select (cmpi .slt (padIdx x) (broadcastInDim S1003520 ![] bcast_S_S1003520 (constantI S_ 32 0#32)))
      (addi (padIdx x) (broadcastInDim S1003520 ![] bcast_S_S1003520 (constantI S_ 32 Nw)))
      (padIdx x))

/-- Below 1000000 the padded array holds the array's own entries. -/
theorem padIdx_at (x : IVec S1000000 32) (e : Fin 1000000) :
    padIdx x (ix1 (⟨e.val, by omega⟩ : Fin 1003520)) = x (ix1 e) :=
  pad_apply_of_inside _ _ _ x _ _ _ _ (ix1 e) (fun a => by
    match a with
    | ⟨0, _⟩ =>
      show e.val = 0 + e.val * (0 + 1)
      omega)

/-- THE START INDEX OF EDGE `e`: the edge's own index with a negative value moved up by `N` (module Rows'
    `normIdx`). -/
theorem startIdx_at (x : IVec S1000000 32) (Nw : BitVec 32) (e : Fin 1000000) :
    startIdx x Nw (ix2 (⟨e.val, by omega⟩ : Fin 1003520) (0 : Fin 1)) = normIdx Nw (x (ix1 e)) := by
  have hb : startIdx x Nw (ix2 (⟨e.val, by omega⟩ : Fin 1003520) (0 : Fin 1))
      = normIdx Nw (padIdx x (ix1 (⟨e.val, by omega⟩ : Fin 1003520))) :=
    broadcastInDim_apply _ _ _ _ (ix1 (⟨e.val, by omega⟩ : Fin 1003520)) (fun a => by
      match a with
      | ⟨0, _⟩ =>
        show e.val = if (1003520 : ℕ) = 1 then 0 else e.val
        rw [if_neg (by decide)])
  rw [hb, padIdx_at]

/-- The row a lookup reads, when its start index is the wrapped index of `v`, is module Rows' row of `v`. -/
theorem row_eq {N : Nat} (hN : 0 < N) {Nw v w : BitVec 32} (h : w = normIdx Nw v)
    (hlt : min w.toInt.toNat (N - 1) < N) :
    (⟨min w.toInt.toNat (N - 1), hlt⟩ : Fin N) = rowOf N hN Nw v := by
  subst h
  rfl

/-! ## The arrays when the call is entered -/

variable (m : (ℓ : Loc nD τ sig) → Buf (Elt Ideal) ℓ) (c : Dev nD)

/-- Core `c`'s TensorCore buffer contents when the call is entered, as a valuation: after the host operations that
    precede it, from the launch contents `m`. -/
abbrev E0 : Valuation τ sig (Elt Ideal) :=
  StableHlo.after (List.flatten [hostOps0, hostOps0_1, hostOps0_2, hostOps0_3, hostOps0_4]) (fun b => m (c, b))
/-- The same read at a TensorCore reference. -/
abbrev Ev (b : Ref sig .tc) : Buf (Elt Ideal) ((c : Thread nD τ).loc b) := E0 m c (Proc.devRef .tc b)

local notation "X0" => (m (Thread.loc (c : Thread nD τ) main_arg0) : S100000x3.Idx → EReal)
local notation "X1" => (m (Thread.loc (c : Thread nD τ) main_arg1) : S50000x3.Idx → EReal)
local notation "X2" => (m (Thread.loc (c : Thread nD τ) main_arg2) : S100000x128.Idx → EReal)
local notation "X3" => (m (Thread.loc (c : Thread nD τ) main_arg3) : S131x128.Idx → EReal)
local notation "X4" => (m (Thread.loc (c : Thread nD τ) main_arg4) : S128.Idx → EReal)
local notation "X5" => (m (Thread.loc (c : Thread nD τ) main_arg5) : S128x128.Idx → EReal)
local notation "X6" => (m (Thread.loc (c : Thread nD τ) main_arg6) : S128.Idx → EReal)
local notation "X7" => (m (Thread.loc (c : Thread nD τ) main_arg7) : S128x128.Idx → EReal)
local notation "X8" => (m (Thread.loc (c : Thread nD τ) main_arg8) : S128.Idx → EReal)
local notation "X9" => (m (Thread.loc (c : Thread nD τ) main_arg9) : S128x1.Idx → EReal)
local notation "XA" => (m (Thread.loc (c : Thread nD τ) main_arg10) : S1.Idx → EReal)
local notation "XB" => (m (Thread.loc (c : Thread nD τ) main_arg11) : S1000000.Idx → BitVec 32)
local notation "XC" => (m (Thread.loc (c : Thread nD τ) main_arg12) : S1000000.Idx → BitVec 32)
local notation "XD" => (m (Thread.loc (c : Thread nD τ) main_arg13) : S50000.Idx → BitVec 32)

/-! ### Each array as one expression in the launch arguments -/

/-- The latent rows: the lookup of the latent table at the column indices. -/
theorem lat_eq :
    (Ev m c main_v9 : S1003520x128.Idx → EReal)
      = Host.gather (rowsDims 100000 128 1003520 gather_S100000x128_S1003520x1_S1003520x128_1_0_n_n_0_1_1128_wf)
          (truncf (F := Ideal) (s := S100000x128) (φ := .f32) .bf16 X2 bitsLt_bf16_f32) (startIdx XC 100000#32) := by
  dsimp only [Ev, E0]
  simp only [hostOps0, hostOps0_1, hostOps0_2, hostOps0_3, hostOps0_4, List.flatten_cons, List.flatten_nil,
    List.append_nil, List.cons_append, List.nil_append]
  after_results_simp
  rfl

/-- The position differences: the row node's position minus the column node's. -/
theorem pos_eq :
    (Ev m c main_v25 : S1003520x3.Idx → EReal)
      = truncf (F := Ideal) (s := S1003520x3) (φ := .f32) .bf16
          (subf (F := Ideal) (s := S1003520x3) (φ := .f32)
            (Host.gather (rowsDims 50000 3 1003520 gather_S50000x3_S1003520x1_S1003520x3_1_0_n_n_0_1_13_wf) X1
              (startIdx XB 50000#32))
            (Host.gather (rowsDims 100000 3 1003520 gather_S100000x3_S1003520x1_S1003520x3_1_0_n_n_0_1_13_wf) X0
              (startIdx XC 100000#32)))
          bitsLt_bf16_f32 := by
  dsimp only [Ev, E0]
  simp only [hostOps0, hostOps0_1, hostOps0_2, hostOps0_3, hostOps0_4, List.flatten_cons, List.flatten_nil,
    List.append_nil, List.cons_append, List.nil_append]
  after_results_simp
  rfl

/-- The occupancies: the lookup of the occupancy table at the row indices, as reals, as a column. -/
theorem occ_eq :
    (Ev m c main_v34 : S1003520x1.Idx → EReal)
      = shapeCast S1003520x1
          (sitofp (F := Ideal) (s := S1003520) .f32
            (Host.gather (elemsDims 50000 1003520 gather_S50000_S1003520x1_S1003520_n_0_n_n_0_1_1_wf) XD
              (startIdx XB 50000#32)))
          shapeCasts_S1003520_S1003520x1 := by
  dsimp only [Ev, E0]
  simp only [hostOps0, hostOps0_1, hostOps0_2, hostOps0_3, hostOps0_4, List.flatten_cons, List.flatten_nil,
    List.append_nil, List.cons_append, List.nil_append]
  after_results_simp
  rfl

/-- The latent part of the first weight matrix: its rows 0 … 127. -/
theorem wlat_eq :
    (Ev m c main_v36 : S128x128.Idx → EReal)
      = truncf (F := Ideal) (s := S128x128) (φ := .f32) .bf16
          (extractStridedSlice S128x128 ![0, 0] X3 slices_S131x128_S128x128_0_0) bitsLt_bf16_f32 := by
  dsimp only [Ev, E0]
  simp only [hostOps0, hostOps0_1, hostOps0_2, hostOps0_3, hostOps0_4, List.flatten_cons, List.flatten_nil,
    List.append_nil, List.cons_append, List.nil_append]
  after_results_simp

/-- The position part of the first weight matrix: its rows 128 … 130. -/
theorem wpos_eq :
    (Ev m c main_v38 : S3x128.Idx → EReal)
      = truncf (F := Ideal) (s := S3x128) (φ := .f32) .bf16
          (extractStridedSlice S3x128 ![128, 0] X3 slices_S131x128_S3x128_128_0) bitsLt_bf16_f32 := by
  dsimp only [Ev, E0]
  simp only [hostOps0, hostOps0_1, hostOps0_2, hostOps0_3, hostOps0_4, List.flatten_cons, List.flatten_nil,
    List.append_nil, List.cons_append, List.nil_append]
  after_results_simp

/-- The first bias as a one-row matrix. -/
theorem bin_eq : (Ev m c main_v39 : S1x128.Idx → EReal) = shapeCast S1x128 X4 shapeCasts_S128_S1x128 := by
  dsimp only [Ev, E0]
  simp only [hostOps0, hostOps0_1, hostOps0_2, hostOps0_3, hostOps0_4, List.flatten_cons, List.flatten_nil,
    List.append_nil, List.cons_append, List.nil_append]
  after_results_simp
  rfl

/-- The second weight matrix. -/
theorem w0_eq :
    (Ev m c main_v40 : S128x128.Idx → EReal)
      = truncf (F := Ideal) (s := S128x128) (φ := .f32) .bf16 X5 bitsLt_bf16_f32 := by
  dsimp only [Ev, E0]
  simp only [hostOps0, hostOps0_1, hostOps0_2, hostOps0_3, hostOps0_4, List.flatten_cons, List.flatten_nil,
    List.append_nil, List.cons_append, List.nil_append]
  after_results_simp

/-- The second bias as a one-row matrix. -/
theorem b0_eq : (Ev m c main_v41 : S1x128.Idx → EReal) = shapeCast S1x128 X6 shapeCasts_S128_S1x128 := by
  dsimp only [Ev, E0]
  simp only [hostOps0, hostOps0_1, hostOps0_2, hostOps0_3, hostOps0_4, List.flatten_cons, List.flatten_nil,
    List.append_nil, List.cons_append, List.nil_append]
  after_results_simp
  rfl

/-- The third weight matrix. -/
theorem w1_eq :
    (Ev m c main_v42 : S128x128.Idx → EReal)
      = truncf (F := Ideal) (s := S128x128) (φ := .f32) .bf16 X7 bitsLt_bf16_f32 := by
  dsimp only [Ev, E0]
  simp only [hostOps0, hostOps0_1, hostOps0_2, hostOps0_3, hostOps0_4, List.flatten_cons, List.flatten_nil,
    List.append_nil, List.cons_append, List.nil_append]
  after_results_simp

/-- The third bias as a one-row matrix. -/
theorem b1_eq : (Ev m c main_v43 : S1x128.Idx → EReal) = shapeCast S1x128 X8 shapeCasts_S128_S1x128 := by
  dsimp only [Ev, E0]
  simp only [hostOps0, hostOps0_1, hostOps0_2, hostOps0_3, hostOps0_4, List.flatten_cons, List.flatten_nil,
    List.append_nil, List.cons_append, List.nil_append]
  after_results_simp
  rfl

/-- The output weights. -/
theorem wout_eq :
    (Ev m c main_v44 : S128x1.Idx → EReal)
      = truncf (F := Ideal) (s := S128x1) (φ := .f32) .bf16 X9 bitsLt_bf16_f32 := by
  dsimp only [Ev, E0]
  simp only [hostOps0, hostOps0_1, hostOps0_2, hostOps0_3, hostOps0_4, List.flatten_cons, List.flatten_nil,
    List.append_nil, List.cons_append, List.nil_append]
  after_results_simp

/-- The output bias as a one-by-one matrix. -/
theorem bout_eq : (Ev m c main_v45 : S1x1.Idx → EReal) = shapeCast S1x1 XA shapeCasts_S1_S1x1 := by
  dsimp only [Ev, E0]
  simp only [hostOps0, hostOps0_1, hostOps0_2, hostOps0_3, hostOps0_4, List.flatten_cons, List.flatten_nil,
    List.append_nil, List.cons_append, List.nil_append]
  after_results_simp
  rfl

/-! ### Each array read at an index -/

/-- ROW `e` OF THE LATENT INPUT is the latent table's row for edge `e`'s column index. -/
theorem lat_row (e : Fin 1000000) (k : Fin 128) :
    (Ev m c main_v9 : S1003520x128.Idx → EReal) (ix2 (⟨e.val, by omega⟩ : Fin 1003520) k)
      = X2 (ix2 (rowOf 100000 (by decide) 100000#32 (XC (ix1 e))) k) := by
  have hg := gather_rows_apply (N := 100000) (D := 128) (M := 1003520) (by decide)
    gather_S100000x128_S1003520x1_S1003520x128_1_0_n_n_0_1_1128_wf
    (truncf (F := Ideal) (s := S100000x128) (φ := .f32) .bf16 X2 bitsLt_bf16_f32) (startIdx XC 100000#32)
    (⟨e.val, by omega⟩ : Fin 1003520) k
  have r := congrArg (fun r => X2 (ix2 r k))
    (row_eq (N := 100000) (by decide) (startIdx_at XC 100000#32 e) (by omega))
  exact (congrFun (lat_eq m c) _).trans (hg.trans r)

/-- ROW `e` OF THE POSITION INPUT is the row node's position minus the column node's. -/
theorem pos_row (e : Fin 1000000) (k : Fin 3) :
    (Ev m c main_v25 : S1003520x3.Idx → EReal) (ix2 (⟨e.val, by omega⟩ : Fin 1003520) k)
      = HSub.hSub (α := EReal) (β := EReal) (γ := EReal)
          (X1 (ix2 (rowOf 50000 (by decide) 50000#32 (XB (ix1 e))) k))
          (X0 (ix2 (rowOf 100000 (by decide) 100000#32 (XC (ix1 e))) k)) := by
  have h1 := gather_rows_apply (N := 50000) (D := 3) (M := 1003520) (by decide)
    gather_S50000x3_S1003520x1_S1003520x3_1_0_n_n_0_1_13_wf X1 (startIdx XB 50000#32)
    (⟨e.val, by omega⟩ : Fin 1003520) k
  have h0 := gather_rows_apply (N := 100000) (D := 3) (M := 1003520) (by decide)
    gather_S100000x3_S1003520x1_S1003520x3_1_0_n_n_0_1_13_wf X0 (startIdx XC 100000#32)
    (⟨e.val, by omega⟩ : Fin 1003520) k
  have r1 := congrArg (fun r => X1 (ix2 r k))
    (row_eq (N := 50000) (by decide) (startIdx_at XB 50000#32 e) (by omega))
  have r0 := congrArg (fun r => X0 (ix2 r k))
    (row_eq (N := 100000) (by decide) (startIdx_at XC 100000#32 e) (by omega))
  exact (congrFun (pos_eq m c) _).trans (congrArg₂ (HSub.hSub (α := EReal) (β := EReal) (γ := EReal)) (h1.trans r1) (h0.trans r0))

/-- ROW `e` OF THE OCCUPANCY INPUT is the row node's occupancy, as a real number. -/
theorem occ_row (e : Fin 1000000) :
    (Ev m c main_v34 : S1003520x1.Idx → EReal) (ix2 (⟨e.val, by omega⟩ : Fin 1003520) (0 : Fin 1))
      = FloatOps.sitofp (F := Ideal) .f32 (XD (ix1 (rowOf 50000 (by decide) 50000#32 (XB (ix1 e))))) := by
  have hg := gather_elems_apply (N := 50000) (M := 1003520) (by decide)
    gather_S50000_S1003520x1_S1003520_n_0_n_n_0_1_1_wf XD (startIdx XB 50000#32)
    (⟨e.val, by omega⟩ : Fin 1003520)
  have r := congrArg (fun r => XD (ix1 r))
    (row_eq (N := 50000) (by decide) (startIdx_at XB 50000#32 e) (by omega))
  exact (congrFun (occ_eq m c) _).trans
    ((shapeCast_a_a1_apply _ _ _ _).trans (congrArg (FloatOps.sitofp (F := Ideal) .f32) (hg.trans r)))

/-- The latent part of the first weight matrix is its rows 0 … 127. -/
theorem wlat_at (k j : Fin 128) :
    (Ev m c main_v36 : S128x128.Idx → EReal) (ix2 k j) = X3 (ix2 (⟨k.val, by omega⟩ : Fin 131) j) :=
  (congrFun (wlat_eq m c) _).trans
    (extractStridedSlice_apply (s := S131x128) (t := S128x128) ![0, 0] X3 slices_S131x128_S128x128_0_0 (ix2 k j)
      (ix2 (⟨k.val, by omega⟩ : Fin 131) j) (fun a => by
      match a with
      | ⟨0, _⟩ => show k.val = 0 + k.val; omega
      | ⟨1, _⟩ => show j.val = 0 + j.val; omega))

/-- The position part of the first weight matrix is its rows 128 … 130. -/
theorem wpos_at (k : Fin 3) (j : Fin 128) :
    (Ev m c main_v38 : S3x128.Idx → EReal) (ix2 k j) = X3 (ix2 (⟨128 + k.val, by omega⟩ : Fin 131) j) :=
  (congrFun (wpos_eq m c) _).trans
    (extractStridedSlice_apply (s := S131x128) (t := S3x128) ![128, 0] X3 slices_S131x128_S3x128_128_0 (ix2 k j)
      (ix2 (⟨128 + k.val, by omega⟩ : Fin 131) j) (fun a => by
      match a with
      | ⟨0, _⟩ => show 128 + k.val = 128 + k.val; rfl
      | ⟨1, _⟩ => show j.val = 0 + j.val; omega))

/-- The first bias, entry `j`. -/
theorem bin_at (j : Fin 128) : (Ev m c main_v39 : S1x128.Idx → EReal) (ix2 (0 : Fin 1) j) = X4 (ix1 j) :=
  (congrFun (bin_eq m c) _).trans (shapeCast_a_1a_apply _ _ (0 : Fin 1) j)

/-- The second weight matrix, unchanged. -/
theorem w0_at (k j : Fin 128) : (Ev m c main_v40 : S128x128.Idx → EReal) (ix2 k j) = X5 (ix2 k j) :=
  congrFun (w0_eq m c) _

/-- The second bias, entry `j`. -/
theorem b0_at (j : Fin 128) : (Ev m c main_v41 : S1x128.Idx → EReal) (ix2 (0 : Fin 1) j) = X6 (ix1 j) :=
  (congrFun (b0_eq m c) _).trans (shapeCast_a_1a_apply _ _ (0 : Fin 1) j)

/-- The third weight matrix, unchanged. -/
theorem w1_at (k j : Fin 128) : (Ev m c main_v42 : S128x128.Idx → EReal) (ix2 k j) = X7 (ix2 k j) :=
  congrFun (w1_eq m c) _

/-- The third bias, entry `j`. -/
theorem b1_at (j : Fin 128) : (Ev m c main_v43 : S1x128.Idx → EReal) (ix2 (0 : Fin 1) j) = X8 (ix1 j) :=
  (congrFun (b1_eq m c) _).trans (shapeCast_a_1a_apply _ _ (0 : Fin 1) j)

/-- The output weights, unchanged. -/
theorem wout_at (k : Fin 128) :
    (Ev m c main_v44 : S128x1.Idx → EReal) (ix2 k (0 : Fin 1)) = X9 (ix2 k (0 : Fin 1)) :=
  congrFun (wout_eq m c) _

/-- The output bias. -/
theorem bout_at :
    (Ev m c main_v45 : S1x1.Idx → EReal) (ix2 (0 : Fin 1) (0 : Fin 1)) = XA (ix1 (0 : Fin 1)) :=
  (congrFun (bout_eq m c) _).trans (shapeCast_a_1a_apply _ _ (0 : Fin 1) (0 : Fin 1))

end Cert.KernelIdeal.HostIn

end
-- ==== Proof.KBlocks.lean ====
/-
  The two arrays the kernel's call writes, as whole-array functions of the arrays it reads.

  The call runs over 245 grid points. Point `t` reads rows `4096 t … 4096 t + 4095` of the gathered latents, of the relative
  positions and of the occupancies, and every weight array whole; it writes rows `4096 t …` of the logits (a [1003520, 1]
  array) and block `t` of a [245, 8, 128] array, every entry of which is the block's masked loss sum. So the logits array
  holds at row `e'` the logit of padded edge `e'`, and the second array holds at `(t, a, b)` the sum over `r < 4096` of the
  loss of padded edge `4096 t + r` times the mask (1 below 1000000, 0 from there on). Every row of either array lies in
  exactly the block of the point `row / 4096` (resp. `t`), which gives the cover.
-/
import proofs.«121731_j87789131530736_2_alg».proof.Proof.KernelIdealFrameP
import proofs.«121731_j87789131530736_2_alg».proof.Proof.KBody
import proofs.«121731_j87789131530736_2_alg».proof.Proof.KHost
import proofs.«121731_j87789131530736_2_alg».proof.Proof.Spec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.EdgeNet Cert.KernelIdeal Cert.KernelIdeal.Gen Cert.KernelIdeal.GenP

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The region-entry contents the generated frame names `V` are the fold of the host operations before the call. -/
theorem V_eq (c : Dev nD) (b : Ref sig .tc) : V m c b = Cert.KernelIdeal.HostIn.Ev m c b := rfl

/-! ## The index maps over the grid -/

theorem N245 : cfg0.N = 245 := N_0

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ win0_13.index t (0 : Fin 3) = t.val ∧ win0_13.index t (1 : Fin 3) = 0 ∧ win0_13.index t (2 : Fin 3) = 0 :=
  (by decide +kernel : ∀ t : Fin grid0.N, _)

theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## The input blocks at a point -/

/-- Input window 0's block at point `t` is rows `4096 t …` of its array. -/
theorem blk0_at (c : Dev nD) (t : Fin cfg0.N) (r : Fin 4096) (k : Fin 128) :
    iblk m c 0 t (ix2 r k) = (V m c main_v9 : S1003520x128.Idx → EReal) (ix2 (⟨4096 * t.val + r.val, by have := t.isLt; have := N245; omega⟩ : Fin 1003520) k) := by
  obtain ⟨e0, e1, -⟩ := idx_rows t
  unfold iblk
  rw [View.read_apply]
  show V m c main_v9 _ = V m c main_v9 _
  refine congrArg (V m c main_v9) (funext fun a => Fin.ext ?_)
  match a with
  | ⟨0, _⟩ => show win0_0.index t (0 : Fin 2) * 4096 + 1 * r.val = 4096 * t.val + r.val; omega
  | ⟨1, _⟩ => show win0_0.index t (1 : Fin 2) * 128 + 1 * k.val = k.val; omega

/-- Input window 1's block at point `t` is rows `4096 t …` of its array. -/
theorem blk1_at (c : Dev nD) (t : Fin cfg0.N) (r : Fin 4096) (k : Fin 3) :
    iblk m c 1 t (ix2 r k) = (V m c main_v25 : S1003520x3.Idx → EReal) (ix2 (⟨4096 * t.val + r.val, by have := t.isLt; have := N245; omega⟩ : Fin 1003520) k) := by
  obtain ⟨-, -, e0, e1, -⟩ := idx_rows t
  unfold iblk
  rw [View.read_apply]
  show V m c main_v25 _ = V m c main_v25 _
  refine congrArg (V m c main_v25) (funext fun a => Fin.ext ?_)
  match a with
  | ⟨0, _⟩ => show win0_1.index t (0 : Fin 2) * 4096 + 1 * r.val = 4096 * t.val + r.val; omega
  | ⟨1, _⟩ => show win0_1.index t (1 : Fin 2) * 3 + 1 * k.val = k.val; omega

/-- Input window 2's block at point `t` is rows `4096 t …` of its array. -/
theorem blk2_at (c : Dev nD) (t : Fin cfg0.N) (r : Fin 4096) (k : Fin 1) :
    iblk m c 2 t (ix2 r k) = (V m c main_v34 : S1003520x1.Idx → EReal) (ix2 (⟨4096 * t.val + r.val, by have := t.isLt; have := N245; omega⟩ : Fin 1003520) k) := by
  obtain ⟨-, -, -, -, e0, e1, -⟩ := idx_rows t
  unfold iblk
  rw [View.read_apply]
  show V m c main_v34 _ = V m c main_v34 _
  refine congrArg (V m c main_v34) (funext fun a => Fin.ext ?_)
  match a with
  | ⟨0, _⟩ => show win0_2.index t (0 : Fin 2) * 4096 + 1 * r.val = 4096 * t.val + r.val; omega
  | ⟨1, _⟩ => show win0_2.index t (1 : Fin 2) * 1 + 1 * k.val = k.val; omega

/-- Input window 3 is its whole array at every point. -/
theorem blk3_at (c : Dev nD) (t : Fin cfg0.N) (p : Fin 128) (q : Fin 128) :
    iblk m c 3 t (ix2 p q) = (V m c main_v36 : S128x128.Idx → EReal) (ix2 p q) := by
  obtain ⟨e0, e1, -⟩ := idx_whole t
  unfold iblk
  rw [View.read_apply]
  show V m c main_v36 _ = V m c main_v36 _
  refine congrArg (V m c main_v36) (funext fun a => Fin.ext ?_)
  match a with
  | ⟨0, _⟩ => show win0_3.index t (0 : Fin 2) * 128 + 1 * p.val = p.val; omega
  | ⟨1, _⟩ => show win0_3.index t (1 : Fin 2) * 128 + 1 * q.val = q.val; omega

/-- Input window 4 is its whole array at every point. -/
theorem blk4_at (c : Dev nD) (t : Fin cfg0.N) (p : Fin 3) (q : Fin 128) :
    iblk m c 4 t (ix2 p q) = (V m c main_v38 : S3x128.Idx → EReal) (ix2 p q) := by
  obtain ⟨-, -, e0, e1, -⟩ := idx_whole t
  unfold iblk
  rw [View.read_apply]
  show V m c main_v38 _ = V m c main_v38 _
  refine congrArg (V m c main_v38) (funext fun a => Fin.ext ?_)
  match a with
  | ⟨0, _⟩ => show win0_4.index t (0 : Fin 2) * 3 + 1 * p.val = p.val; omega
  | ⟨1, _⟩ => show win0_4.index t (1 : Fin 2) * 128 + 1 * q.val = q.val; omega

/-- Input window 5 is its whole array at every point. -/
theorem blk5_at (c : Dev nD) (t : Fin cfg0.N) (p : Fin 1) (q : Fin 128) :
    iblk m c 5 t (ix2 p q) = (V m c main_v39 : S1x128.Idx → EReal) (ix2 p q) := by
  obtain ⟨-, -, -, -, e0, e1, -⟩ := idx_whole t
  unfold iblk
  rw [View.read_apply]
  show V m c main_v39 _ = V m c main_v39 _
  refine congrArg (V m c main_v39) (funext fun a => Fin.ext ?_)
  match a with
  | ⟨0, _⟩ => show win0_5.index t (0 : Fin 2) * 1 + 1 * p.val = p.val; omega
  | ⟨1, _⟩ => show win0_5.index t (1 : Fin 2) * 128 + 1 * q.val = q.val; omega

/-- Input window 6 is its whole array at every point. -/
theorem blk6_at (c : Dev nD) (t : Fin cfg0.N) (p : Fin 128) (q : Fin 128) :
    iblk m c 6 t (ix2 p q) = (V m c main_v40 : S128x128.Idx → EReal) (ix2 p q) := by
  obtain ⟨-, -, -, -, -, -, e0, e1, -⟩ := idx_whole t
  unfold iblk
  rw [View.read_apply]
  show V m c main_v40 _ = V m c main_v40 _
  refine congrArg (V m c main_v40) (funext fun a => Fin.ext ?_)
  match a with
  | ⟨0, _⟩ => show win0_6.index t (0 : Fin 2) * 128 + 1 * p.val = p.val; omega
  | ⟨1, _⟩ => show win0_6.index t (1 : Fin 2) * 128 + 1 * q.val = q.val; omega

/-- Input window 7 is its whole array at every point. -/
theorem blk7_at (c : Dev nD) (t : Fin cfg0.N) (p : Fin 1) (q : Fin 128) :
    iblk m c 7 t (ix2 p q) = (V m c main_v41 : S1x128.Idx → EReal) (ix2 p q) := by
  obtain ⟨-, -, -, -, -, -, -, -, e0, e1, -⟩ := idx_whole t
  unfold iblk
  rw [View.read_apply]
  show V m c main_v41 _ = V m c main_v41 _
  refine congrArg (V m c main_v41) (funext fun a => Fin.ext ?_)
  match a with
  | ⟨0, _⟩ => show win0_7.index t (0 : Fin 2) * 1 + 1 * p.val = p.val; omega
  | ⟨1, _⟩ => show win0_7.index t (1 : Fin 2) * 128 + 1 * q.val = q.val; omega

/-- Input window 8 is its whole array at every point. -/
theorem blk8_at (c : Dev nD) (t : Fin cfg0.N) (p : Fin 128) (q : Fin 128) :
    iblk m c 8 t (ix2 p q) = (V m c main_v42 : S128x128.Idx → EReal) (ix2 p q) := by
  obtain ⟨-, -, -, -, -, -, -, -, -, -, e0, e1, -⟩ := idx_whole t
  unfold iblk
  rw [View.read_apply]
  show V m c main_v42 _ = V m c main_v42 _
  refine congrArg (V m c main_v42) (funext fun a => Fin.ext ?_)
  match a with
  | ⟨0, _⟩ => show win0_8.index t (0 : Fin 2) * 128 + 1 * p.val = p.val; omega
  | ⟨1, _⟩ => show win0_8.index t (1 : Fin 2) * 128 + 1 * q.val = q.val; omega

/-- Input window 9 is its whole array at every point. -/
theorem blk9_at (c : Dev nD) (t : Fin cfg0.N) (p : Fin 1) (q : Fin 128) :
    iblk m c 9 t (ix2 p q) = (V m c main_v43 : S1x128.Idx → EReal) (ix2 p q) := by
  obtain ⟨-, -, -, -, -, -, -, -, -, -, -, -, e0, e1, -⟩ := idx_whole t
  unfold iblk
  rw [View.read_apply]
  show V m c main_v43 _ = V m c main_v43 _
  refine congrArg (V m c main_v43) (funext fun a => Fin.ext ?_)
  match a with
  | ⟨0, _⟩ => show win0_9.index t (0 : Fin 2) * 1 + 1 * p.val = p.val; omega
  | ⟨1, _⟩ => show win0_9.index t (1 : Fin 2) * 128 + 1 * q.val = q.val; omega

/-- Input window 10 is its whole array at every point. -/
theorem blk10_at (c : Dev nD) (t : Fin cfg0.N) (p : Fin 128) (q : Fin 1) :
    iblk m c 10 t (ix2 p q) = (V m c main_v44 : S128x1.Idx → EReal) (ix2 p q) := by
  obtain ⟨-, -, -, -, -, -, -, -, -, -, -, -, -, -, e0, e1, -⟩ := idx_whole t
  unfold iblk
  rw [View.read_apply]
  show V m c main_v44 _ = V m c main_v44 _
  refine congrArg (V m c main_v44) (funext fun a => Fin.ext ?_)
  match a with
  | ⟨0, _⟩ => show win0_10.index t (0 : Fin 2) * 128 + 1 * p.val = p.val; omega
  | ⟨1, _⟩ => show win0_10.index t (1 : Fin 2) * 1 + 1 * q.val = q.val; omega

/-- Input window 11 is its whole array at every point. -/
theorem blk11_at (c : Dev nD) (t : Fin cfg0.N) (p : Fin 1) (q : Fin 1) :
    iblk m c 11 t (ix2 p q) = (V m c main_v45 : S1x1.Idx → EReal) (ix2 p q) := by
  obtain ⟨-, -, -, -, -, -, -, -, -, -, -, -, -, -, -, -, e0, e1⟩ := idx_whole t
  unfold iblk
  rw [View.read_apply]
  show V m c main_v45 _ = V m c main_v45 _
  refine congrArg (V m c main_v45) (funext fun a => Fin.ext ?_)
  match a with
  | ⟨0, _⟩ => show win0_11.index t (0 : Fin 2) * 1 + 1 * p.val = p.val; omega
  | ⟨1, _⟩ => show win0_11.index t (1 : Fin 2) * 1 + 1 * q.val = q.val; omega

/-! ## The weights and the padded edges' rows, as the call finds them -/

/-- The eight weight arrays, as the argument arrays hold them on core `c`. -/
def W (c : Dev nD) : Weights :=
  ⟨m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10)⟩

/-- The gathered latents of padded edge `e'`. -/
def latRow (c : Dev nD) (e' : Fin 1003520) : Fin 128 → EReal := fun k => (V m c main_v9 : S1003520x128.Idx → EReal) (ix2 e' k)
/-- The relative position of padded edge `e'`. -/
def posRow (c : Dev nD) (e' : Fin 1003520) : Fin 3 → EReal := fun k => (V m c main_v25 : S1003520x3.Idx → EReal) (ix2 e' k)
/-- The occupancy of padded edge `e'`. -/
def occAt (c : Dev nD) (e' : Fin 1003520) : EReal := (V m c main_v34 : S1003520x1.Idx → EReal) (ix2 e' (0 : Fin 1))

/-- The logit of padded edge `e'`. -/
def zP (c : Dev nD) (e' : Fin 1003520) : EReal := logit (W m c) (latRow m c e') (posRow m c e')

/-- The logits array: row `e'` holds the logit of padded edge `e'`. -/
def G12 (c : Dev nD) : S1003520x1.Idx → EReal := fun j => zP m c ⟨(j 0).val, (j 0).isLt⟩

/-- The masked loss sum of block `t`: padded edges `4096 t + r`, those from 1000000 on multiplied by 0. -/
def blockLoss (c : Dev nD) (t : Fin 245) : EReal :=
  ∑ r : Fin 4096, bce (zP m c ⟨4096 * t.val + r.val, by have := t.isLt; omega⟩) (occAt m c ⟨4096 * t.val + r.val, by have := t.isLt; omega⟩)
    * (if 4096 * t.val + r.val < 1000000 then (1 : EReal) else 0)

/-- The loss-partials array: every entry of block `t` holds that block's masked loss sum. -/
def G13 (c : Dev nD) : S245x8x128.Idx → EReal := fun j => blockLoss m c ⟨(j 0).val, (j 0).isLt⟩

/-! ## What a point writes back -/

section Point
variable (c : Dev nD) (t : Fin cfg0.N)

theorem t_lt : t.val < 245 := by have := t.isLt; have := N245; omega

/-- The hypotheses of the body's value lemmas, at the blocks of point `t`. -/
theorem h3 (k j : Fin 128) : iblk m c 3 t (ix2 k j) = (W m c).wIn (ix2 (⟨k.val, by omega⟩ : Fin 131) j) := by
  rw [blk3_at, V_eq]; exact Cert.KernelIdeal.HostIn.wlat_at m c k j
theorem h4 (k : Fin 3) (j : Fin 128) : iblk m c 4 t (ix2 k j) = (W m c).wIn (ix2 (⟨128 + k.val, by omega⟩ : Fin 131) j) := by
  rw [blk4_at, V_eq]; exact Cert.KernelIdeal.HostIn.wpos_at m c k j
theorem h5 (j : Fin 128) : iblk m c 5 t (ix2 (0 : Fin 1) j) = (W m c).bIn (ix1 j) := by
  rw [blk5_at, V_eq]; exact Cert.KernelIdeal.HostIn.bin_at m c j
theorem h6 (k j : Fin 128) : iblk m c 6 t (ix2 k j) = (W m c).w0 (ix2 k j) := by
  rw [blk6_at, V_eq]; exact Cert.KernelIdeal.HostIn.w0_at m c k j
theorem h7 (j : Fin 128) : iblk m c 7 t (ix2 (0 : Fin 1) j) = (W m c).b0 (ix1 j) := by
  rw [blk7_at, V_eq]; exact Cert.KernelIdeal.HostIn.b0_at m c j
theorem h8 (k j : Fin 128) : iblk m c 8 t (ix2 k j) = (W m c).w1 (ix2 k j) := by
  rw [blk8_at, V_eq]; exact Cert.KernelIdeal.HostIn.w1_at m c k j
theorem h9 (j : Fin 128) : iblk m c 9 t (ix2 (0 : Fin 1) j) = (W m c).b1 (ix1 j) := by
  rw [blk9_at, V_eq]; exact Cert.KernelIdeal.HostIn.b1_at m c j
theorem h10 (k : Fin 128) : iblk m c 10 t (ix2 k (0 : Fin 1)) = (W m c).wOut (ix2 k (0 : Fin 1)) := by
  rw [blk10_at, V_eq]; exact Cert.KernelIdeal.HostIn.wout_at m c k
theorem h11 : iblk m c 11 t (ix2 (0 : Fin 1) (0 : Fin 1)) = (W m c).bOut (ix1 (0 : Fin 1)) := by
  rw [blk11_at, V_eq]; exact Cert.KernelIdeal.HostIn.bout_at m c

/-- The logit the body computes for row `r` of point `t`'s block is the logit of padded edge `4096 t + r`. -/
theorem logit_at (r : Fin 4096) :
    logit (W m c) (fun k => iblk m c 0 t (ix2 r k)) (fun k => iblk m c 1 t (ix2 r k))
      = zP m c ⟨4096 * t.val + r.val, by have := t_lt t; omega⟩ := by
  unfold zP
  exact congrArg₂ (logit (W m c)) (funext fun k => blk0_at m c t r k) (funext fun k => blk1_at m c t r k)

/-- Point `t` writes back rows `4096 t …` of the logits array. -/
theorem flushed12_eq : (dats m 0 c).flushed 12 t = ((cfg0.win 12).blk t).view.read (Elt Ideal) (G12 m c) := by
  show (cfg0.win 12).cut (grid0.coords t) ((dats m 0 c).after 12 t) = _
  rw [after0_12]
  unfold out0_12
  rw [View.canon_unit_zero hz2]
  simp only [View.ld_unit_zero (S := S4096x128) hz2, View.ld_unit_zero (S := S4096x3) hz2, View.ld_unit_zero (S := S128x128) hz2,
    View.ld_unit_zero (S := S3x128) hz2, View.ld_unit_zero (S := S1x128) hz2, View.ld_unit_zero (S := S128x1) hz2,
    View.ld_unit_zero (S := S1x1) hz2]
  funext y
  obtain ⟨r, q, rfl⟩ : ∃ (r : Fin 4096) (q : Fin 1), y = ix2 r q := ⟨y 0, y 1, eq_ix2 y⟩
  obtain rfl : q = 0 := Subsingleton.elim _ _
  show k0_pay1 (F := Ideal) (k0_pay3 (iblk m c 0 t) (iblk m c 1 t) (iblk m c 3 t) (iblk m c 4 t) (iblk m c 5 t) (iblk m c 6 t) (iblk m c 7 t) (iblk m c 8 t) (iblk m c 9 t)) (iblk m c 10 t) (iblk m c 11 t) (ix2 r (0 : Fin 1)) = _
  refine (Cert.KernelIdeal.Body.pay1_apply (iblk m c 0 t) (iblk m c 1 t) (iblk m c 3 t) (iblk m c 4 t) (iblk m c 5 t) (iblk m c 6 t)
    (iblk m c 7 t) (iblk m c 8 t) (iblk m c 9 t) (iblk m c 10 t) (iblk m c 11 t) (W m c)
    (h3 m c t) (h4 m c t) (h5 m c t) (h6 m c t) (h7 m c t) (h8 m c t) (h9 m c t) (h10 m c t) (h11 m c t) r).trans ?_
  rw [logit_at m c t r, View.read_apply]
  obtain ⟨-, -, -, -, -, -, e0, e1, -⟩ := idx_rows t
  show _ = G12 m c _
  unfold G12
  congr 1
  apply Fin.ext
  show 4096 * t.val + r.val = win0_12.index t (0 : Fin 2) * 4096 + 1 * r.val
  omega

/-- Point `t` writes back block `t` of the loss-partials array. -/
theorem flushed13_eq : (dats m 0 c).flushed 13 t = ((cfg0.win 13).blk t).view.read (Elt Ideal) (G13 m c) := by
  show (cfg0.win 13).cut (grid0.coords t) ((dats m 0 c).after 13 t) = _
  rw [after0_13]
  unfold out0_13
  rw [View.canon_unit_zero hz3]
  simp only [View.ld_unit_zero (S := S4096x128) hz2, View.ld_unit_zero (S := S4096x3) hz2, View.ld_unit_zero (S := S128x128) hz2,
    View.ld_unit_zero (S := S3x128) hz2, View.ld_unit_zero (S := S1x128) hz2, View.ld_unit_zero (S := S128x1) hz2,
    View.ld_unit_zero (S := S1x1) hz2, View.ld_unit_zero (S := S4096x1) hz2]
  funext y
  obtain ⟨p, a, b, rfl⟩ : ∃ (p : Fin 1) (a : Fin 8) (b : Fin 128), y = ix3 p a b := ⟨y 0, y 1, y 2, eq_ix3 y⟩
  obtain rfl : p = 0 := Subsingleton.elim _ _
  show k0_pay2 (F := Ideal) (BitVec.ofNat 32 (grid0.coords t 0).val) (k0_pay3 (iblk m c 0 t) (iblk m c 1 t) (iblk m c 3 t) (iblk m c 4 t) (iblk m c 5 t) (iblk m c 6 t) (iblk m c 7 t) (iblk m c 8 t) (iblk m c 9 t)) (iblk m c 10 t) (iblk m c 11 t) (iblk m c 2 t) (ix3 (0 : Fin 1) a b) = _
  have hcoord : (grid0.coords t 0).val = t.val := by
    have h : ∀ t : Fin grid0.N, (grid0.coords t 0).val = t.val := by decide +kernel
    exact h t
  rw [hcoord]
  refine (Cert.KernelIdeal.Body.pay2_apply (iblk m c 0 t) (iblk m c 1 t) (iblk m c 3 t) (iblk m c 4 t) (iblk m c 5 t) (iblk m c 6 t)
    (iblk m c 7 t) (iblk m c 8 t) (iblk m c 9 t) (iblk m c 10 t) (iblk m c 11 t) (iblk m c 2 t) (W m c)
    (h3 m c t) (h4 m c t) (h5 m c t) (h6 m c t) (h7 m c t) (h8 m c t) (h9 m c t) (h10 m c t) (h11 m c t) t.val (t_lt t) a b).trans ?_
  rw [View.read_apply]
  obtain ⟨-, -, -, -, -, -, -, -, e0, e1, e2⟩ := idx_rows t
  show _ = G13 m c _
  unfold G13 blockLoss
  refine Finset.sum_congr rfl fun r _ => ?_
  rw [logit_at m c t r, blk2_at m c t r (0 : Fin 1)]
  have hb : ((((cfg0.win 13).blk t).view.emb (ix3 (0 : Fin 1) a b)) 0).val = t.val := by
    show win0_13.index t (0 : Fin 3) * 1 + 1 * 0 = t.val
    omega
  simp only [hb]
  rfl

end Point

/-! ## The covers and the two arrays after the run -/

theorem mem_blk12 (t : Fin cfg0.N) (i : S1003520x1.Idx) :
    i ∈ ((cfg0.win 12).blk t).view.set ↔ ∀ a : Fin 2, win0_12.index t a * S4096x1.size a ≤ (i a).val ∧ (i a).val < win0_12.index t a * S4096x1.size a + S4096x1.size a := by
  show i ∈ ((View.whole main_v46_0).slice (win0_12.rect t)).set ↔ _
  rw [View.set_slice_whole, Rect.mem_set_unit]
  exact Iff.rfl

theorem mem_blk13 (t : Fin cfg0.N) (i : S245x8x128.Idx) :
    i ∈ ((cfg0.win 13).blk t).view.set ↔ ∀ a : Fin 3, win0_13.index t a * S1x8x128.size a ≤ (i a).val ∧ (i a).val < win0_13.index t a * S1x8x128.size a + S1x8x128.size a := by
  show i ∈ ((View.whole main_v46_1).slice (win0_13.rect t)).set ↔ _
  rw [View.set_slice_whole, Rect.mem_set_unit]
  exact Iff.rfl

/-- The logits array after the run. -/
theorem final12 (c : Dev nD) : (dats m 0 c).arrAt 12 cfg0.N = G12 m c :=
  (dats m 0 c).arrAt_eq_of_cover 12 (G12 m c) (fun t _ => flushed12_eq m c t) fun i => by
    have hi0 : (i 0).val < 1003520 := (i 0).isLt
    have hi1 : (i 1).val < 1 := (i 1).isLt
    let t : Fin cfg0.N := ⟨(i 0).val / 4096, by rw [N245]; omega⟩
    obtain ⟨-, -, -, -, -, -, e0, e1, -⟩ := idx_rows t
    have ht : t.val = (i 0).val / 4096 := rfl
    refine ⟨t, flush0_12 t, ?_⟩
    rw [mem_blk12]
    intro a
    match a with
    | ⟨0, _⟩ => show win0_12.index t (0 : Fin 2) * 4096 ≤ (i 0).val ∧ (i 0).val < win0_12.index t (0 : Fin 2) * 4096 + 4096; omega
    | ⟨1, _⟩ => show win0_12.index t (1 : Fin 2) * 1 ≤ (i 1).val ∧ (i 1).val < win0_12.index t (1 : Fin 2) * 1 + 1; omega

/-- The loss-partials array after the run. -/
theorem final13 (c : Dev nD) : (dats m 0 c).arrAt 13 cfg0.N = G13 m c :=
  (dats m 0 c).arrAt_eq_of_cover 13 (G13 m c) (fun t _ => flushed13_eq m c t) fun i => by
    have hi0 : (i 0).val < 245 := (i 0).isLt
    have hi1 : (i 1).val < 8 := (i 1).isLt
    have hi2 : (i 2).val < 128 := (i 2).isLt
    let t : Fin cfg0.N := ⟨(i 0).val, by rw [N245]; omega⟩
    obtain ⟨-, -, -, -, -, -, -, -, e0, e1, e2⟩ := idx_rows t
    have ht : t.val = (i 0).val := rfl
    refine ⟨t, flush0_13 t, ?_⟩
    rw [mem_blk13]
    intro a
    match a with
    | ⟨0, _⟩ => show win0_13.index t (0 : Fin 3) * 1 ≤ (i 0).val ∧ (i 0).val < win0_13.index t (0 : Fin 3) * 1 + 1; omega
    | ⟨1, _⟩ => show win0_13.index t (1 : Fin 3) * 8 ≤ (i 1).val ∧ (i 1).val < win0_13.index t (1 : Fin 3) * 8 + 8; omega
    | ⟨2, _⟩ => show win0_13.index t (2 : Fin 3) * 128 ≤ (i 2).val ∧ (i 2).val < win0_13.index t (2 : Fin 3) * 128 + 128; omega

end Cert.KernelIdeal.Blocks

end
-- ==== Proof.KRun.lean ====
/-
  The kernel program's run, read: after the call, the host slices the first 1000000 rows of the logits array and drops the
  unit axis — entry `e` is the logit of padded edge `e` —, and sums the loss-partials array over all of its 245 · 8 · 128
  entries from zero and divides by the word of 1.024e9. The argument arrays end as they began.
-/
import proofs.«121731_j87789131530736_2_alg».proof.Proof.KBlocks
import Idealize.ShloMosaic.Lib.StableHlo.Run
import Idealize.ShloMosaic.Lib.Pipeline.Value
import Idealize.ShloMosaic.PureOps.Ideal.Laws

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KRun

open Cert.EdgeNet Cert.KernelIdeal Cert.KernelIdeal.Gen Cert.KernelIdeal.GenP Cert.KernelIdeal.Blocks

variable (m : (ℓ : Loc nD τ sig) → Buf (Elt Ideal) ℓ) (ρ : Dev nD → PrngReg)

/-- The kernel program's first result: entry `e` is the logit of padded edge `e`. -/
def predK (c : Dev nD) : S1000000.Idx → EReal :=
  fun j => zP m c ⟨(j 0).val, by have h : (j 0).val < 1000000 := (j 0).isLt; omega⟩

/-- The kernel program's second result: zero plus the sum of every entry of the loss-partials array, over the word of 1.024e9. -/
def lossK (c : Dev nD) : S_.Idx → EReal :=
  fun _ => Ideal.div (Ideal.ofBits .f32 0x00000000#32 + ∑ j : S245x8x128.Idx, G13 m c j) (Ideal.ofBits .f32 0x4E742400#32)

/-- After the call the logits array is `G12`. -/
theorem arr12 (c : Dev nD) :
    Pipeline.withArrays (cfgs 0).spec c (V0 m c) (fun w => (dats m 0 c).arrAt w (cfgs 0).N) (Proc.devRef .tc main_v46_0) = G12 m c :=
  (Pipeline.withArrays_arr spec0 launch0.win.arr_inj c _ _ 12).trans (final12 m c)

/-- After the call the loss-partials array is `G13`. -/
theorem arr13 (c : Dev nD) :
    Pipeline.withArrays (cfgs 0).spec c (V0 m c) (fun w => (dats m 0 c).arrAt w (cfgs 0).N) (Proc.devRef .tc main_v46_1) = G13 m c :=
  (Pipeline.withArrays_arr spec0 launch0.win.arr_inj c _ _ 13).trans (final13 m c)

/-- The first result after the host operations that follow the call. -/
theorem tail_pred (c : Dev nD) : Pipeline.afterTail₀ cfgs (dats m) 0 (V0 m) [hostOps1] c main_v48 = predK m c := by
  unfold Pipeline.afterTail₀
  show StableHlo.after hostOps1 _ (Proc.devRef .tc main_v48) = _
  after_results
  rw [arr12 m c]
  funext j
  have hj : (j 0).val < 1000000 := (j 0).isLt
  refine (shapeCast_apply _ shapeCasts_S1000000x1_S1000000 j (ix2 (⟨(j 0).val, hj⟩ : Fin 1000000) (0 : Fin 1))
    (by rewrite [Shape.rowMajor_val_two, Shape.rowMajor_val_one]; show (j 0).val * 1 + 0 = (j 0).val; omega)).trans ?_
  refine (extractStridedSlice_apply _ _ slices_S1003520x1_S1000000x1_0_0 _ (ix2 (⟨(j 0).val, by omega⟩ : Fin 1003520) (0 : Fin 1))
    (fun a => match a with
      | ⟨0, _⟩ => by show (j 0).val = 0 + (j 0).val; omega
      | ⟨1, _⟩ => by show (0 : Nat) = 0 + 0; rfl)).trans ?_
  rfl

/-- The second result after the host operations that follow the call. -/
theorem tail_loss (c : Dev nD) : Pipeline.afterTail₀ cfgs (dats m) 0 (V0 m) [hostOps1] c main_v50 = lossK m c := by
  unfold Pipeline.afterTail₀
  show StableHlo.after hostOps1 _ (Proc.devRef .tc main_v50) = _
  after_results
  rw [arr13 m c]
  funext i
  show FloatOps.hostDivf (Host.reduceAdd (F := Ideal) (G13 m c) (constant (F := Ideal) S_ .f32 0x00000000#32) reducesTo_S245x8x128_S_d0_1_2 h_S_ i)
      (constant (F := Ideal) S_ .f32 0x4E742400#32 i) = _
  simp only [Host.reduceAdd, Ideal.hostReduceAdd_def]
  rw [Ideal.hostReduceAdd_total reducesTo_S245x8x128_S_d0_1_2 (fun b => b.elim0) (G13 m c) _ i]
  rfl

/-- THE RUN of the kernel program at the extended reals: both results named, the arguments unchanged. -/
theorem run : θ_run defs (onTc (τ := τ) (main (F := Ideal))) ⟨m, fun _ => 0, ρ⟩ fun r => ∀ c : Dev nD,
      r.2.mem ((c.tc : Thread nD τ).loc main_v48) = predK m c
      ∧ r.2.mem ((c.tc : Thread nD τ).loc main_v50) = lossK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨((h c).2 main_v48 (Pipeline.mem_restRefs_of main_v48 (by decide) (by decide))).trans (tail_pred m c),
     ((h c).2 main_v50 (Pipeline.mem_restRefs_of main_v50 (by decide) (by decide))).trans (tail_loss m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c),
     ((h c).2 main_arg8 (Pipeline.mem_restRefs_of main_arg8 (by decide) (by decide))).trans (W_main_arg8 m (dats m) c),
     ((h c).2 main_arg9 (Pipeline.mem_restRefs_of main_arg9 (by decide) (by decide))).trans (W_main_arg9 m (dats m) c),
     ((h c).2 main_arg10 (Pipeline.mem_restRefs_of main_arg10 (by decide) (by decide))).trans (W_main_arg10 m (dats m) c),
     ((h c).2 main_arg11 (Pipeline.mem_restRefs_of main_arg11 (by decide) (by decide))).trans (W_main_arg11 m (dats m) c),
     ((h c).2 main_arg12 (Pipeline.mem_restRefs_of main_arg12 (by decide) (by decide))).trans (W_main_arg12 m (dats m) c),
     ((h c).2 main_arg13 (Pipeline.mem_restRefs_of main_arg13 (by decide) (by decide))).trans (W_main_arg13 m (dats m) c)⟩)
    (run_main m ρ)

end Cert.KernelIdeal.KRun

end
-- ==== Proof.RefValue.lean ====
/-
  The reference program's two results, read index by index on the extended reals, are the specification applied to the
  reference's own gathered arrays.

  Row `e` of the concatenated input is the 128 gathered latents of edge `e` followed by its 3 relative positions (gathered
  target position minus gathered source position). Its inner product with column `j` of the 131 × 128 input weights therefore
  splits into the inner product of the latents with weight rows 0 … 127 and that of the relative position with weight rows
  128 … 130; with the bias this is output `j` of the input layer. Each later contraction is an inner product with a column
  of its weights plus a bias, taken after `max · 0` with the zero word; the last one, against the 128 × 1 output weights, is
  the logit of the edge, and the reshape to a vector reads it at column 0. The second result adds up over the 1000000 edges,
  starting from the zero word, the stable binary cross entropy of the logit and the converted occupancy, and divides the
  total by the word of 1.0e6.

  The three gathers and the converted occupancies are not opened: the statements say what is computed from them.
-/
import proofs.«121731_j87789131530736_2_alg».proof.Proof.Gen.ReferenceIdeal.Read
import proofs.«121731_j87789131530736_2_alg».proof.Proof.Spec
import Idealize.ShloMosaic.Lib.Pipeline.Value
import Idealize.ShloMosaic.PureOps.Ideal.Laws

noncomputable section

namespace Cert.ReferenceIdeal.RefValue

open Cert.EdgeNet Cert.ReferenceIdeal Cert.ReferenceIdeal.Gen Cert.ReferenceIdeal.Read Idealize.ShloMosaic
  Idealize.ShloMosaic.ValueIdx Idealize.ShloMosaic.TcCoe

/-! ## Two re-indexings of finite sums -/

/-- A sum over 131 indices is the sum over the first 128 of them plus the sum over the last 3. -/
theorem sum_first128_last3 (f : Fin 131 → EReal) :
    ∑ k : Fin 131, f k = (∑ k : Fin 128, f ⟨k.val, by omega⟩) + ∑ k : Fin 3, f ⟨128 + k.val, by omega⟩ :=
  Fin.sum_univ_add (a := 128) (b := 3) f

/-- A sum over the indices of a vector is the sum over its one coordinate. -/
theorem sum_over_coord {n : Nat} (f : (⟨1, ![n]⟩ : Shape).Idx → EReal) : ∑ j, f j = ∑ e : Fin n, f (ix1 e) := by
  let E : (⟨1, ![n]⟩ : Shape).Idx ≃ Fin n :=
    { toFun := fun i => i 0, invFun := fun a => ix1 a, left_inv := fun i => (eq_ix1 i).symm, right_inv := fun _ => rfl }
  rw [← Equiv.sum_comp E.symm f]
  rfl

section Args

variable (x0 : (⟨S100000x3, .f32⟩ : BufTy).Contents (Elt Ideal)) (x1 : (⟨S50000x3, .f32⟩ : BufTy).Contents (Elt Ideal))
  (x2 : (⟨S100000x128, .f32⟩ : BufTy).Contents (Elt Ideal)) (x3 : (⟨S131x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x128, .f32⟩ : BufTy).Contents (Elt Ideal))
  (x8 : (⟨S128, .f32⟩ : BufTy).Contents (Elt Ideal)) (x9 : (⟨S128x1, .f32⟩ : BufTy).Contents (Elt Ideal))
  (x10 : (⟨S1, .f32⟩ : BufTy).Contents (Elt Ideal)) (x11 x12 : (⟨S1000000, .i32⟩ : BufTy).Contents (Elt Ideal))
  (x13 : (⟨S50000, .i32⟩ : BufTy).Contents (Elt Ideal))

/-! ## The concatenated input row -/

/-- Columns 0 … 127 of row `e` of the concatenation are the gathered latents of edge `e`. -/
theorem concat_latents (e : Fin 1000000) (k : Fin 128) :
    val_main_v22 (F := Ideal) x0 x1 x2 x11 x12 (ix2 e (⟨k.val, by omega⟩ : Fin 131))
      = val_main_v21 (F := Ideal) x2 x12 (ix2 e k) := by
  unfold val_main_v22
  exact concatenate_pair_apply_left (t := S1000000x131) (s₁ := S1000000x128) (s₂ := S1000000x3) 1 _ _ _
    (ix2 e (⟨k.val, by omega⟩ : Fin 131)) rfl (ix2 e k) (fun b => match b with | ⟨0, _⟩ => rfl | ⟨1, _⟩ => rfl)

/-- Columns 128 … 130 of row `e` of the concatenation are the relative position of edge `e`. -/
theorem concat_relpos (e : Fin 1000000) (k : Fin 3) :
    val_main_v22 (F := Ideal) x0 x1 x2 x11 x12 (ix2 e (⟨128 + k.val, by omega⟩ : Fin 131))
      = val_main_v14 (F := Ideal) x0 x1 x11 x12 (ix2 e k) := by
  unfold val_main_v22
  exact concatenate_pair_apply_right (t := S1000000x131) (s₁ := S1000000x128) (s₂ := S1000000x3) 1 _ _ _
    (ix2 e (⟨128 + k.val, by omega⟩ : Fin 131)) rfl rfl (ix2 e k)
    (fun b hb => match b, hb with | ⟨0, _⟩, _ => rfl | ⟨1, _⟩, hb => absurd rfl hb)
    (by show k.val + 128 = 128 + k.val; omega)

/-! ## The four contractions, row against column, and the four broadcast biases -/

/-- Entry `(e, j)` of the input contraction: row `e` of the concatenation against column `j` of the input weights. -/
theorem v23_at (e : Fin 1000000) (j : Fin 128) :
    val_main_v23 (F := Ideal) x0 x1 x2 x3 x11 x12 (ix2 e j)
      = ∑ k : Fin 131, val_main_v22 (F := Ideal) x0 x1 x2 x11 x12 (ix2 e k) * x3 (ix2 k j) := by
  rw [val_main_v23_apply]
  refine Finset.sum_congr rfl fun k _ => ?_
  have hl : lidx_main_v23 (ix2 e j) k = ix2 e k :=
    funext fun a => Fin.ext (by match a with | ⟨0, _⟩ => rfl | ⟨1, _⟩ => rfl)
  have hr : ridx_main_v23 (ix2 e j) k = ix2 k j :=
    funext fun a => Fin.ext (by match a with | ⟨0, _⟩ => rfl | ⟨1, _⟩ => rfl)
  rw [hl, hr]

/-- Entry `(e, j)` of the first hidden contraction: row `e` of the activations against column `j` of the weights. -/
theorem v28_at (e : Fin 1000000) (j : Fin 128) :
    val_main_v28 (F := Ideal) x0 x1 x2 x3 x4 x5 x11 x12 (ix2 e j)
      = ∑ k : Fin 128, val_main_v27 (F := Ideal) x0 x1 x2 x3 x4 x11 x12 (ix2 e k) * x5 (ix2 k j) := by
  rw [val_main_v28_apply]
  refine Finset.sum_congr rfl fun k _ => ?_
  have hl : lidx_main_v28 (ix2 e j) k = ix2 e k :=
    funext fun a => Fin.ext (by match a with | ⟨0, _⟩ => rfl | ⟨1, _⟩ => rfl)
  have hr : ridx_main_v28 (ix2 e j) k = ix2 k j :=
    funext fun a => Fin.ext (by match a with | ⟨0, _⟩ => rfl | ⟨1, _⟩ => rfl)
  rw [hl, hr]

/-- Entry `(e, j)` of the second hidden contraction. -/
theorem v33_at (e : Fin 1000000) (j : Fin 128) :
    val_main_v33 (F := Ideal) x0 x1 x2 x3 x4 x5 x6 x7 x11 x12 (ix2 e j)
      = ∑ k : Fin 128, val_main_v32 (F := Ideal) x0 x1 x2 x3 x4 x5 x6 x11 x12 (ix2 e k) * x7 (ix2 k j) := by
  rw [val_main_v33_apply]
  refine Finset.sum_congr rfl fun k _ => ?_
  have hl : lidx_main_v33 (ix2 e j) k = ix2 e k :=
    funext fun a => Fin.ext (by match a with | ⟨0, _⟩ => rfl | ⟨1, _⟩ => rfl)
  have hr : ridx_main_v33 (ix2 e j) k = ix2 k j :=
    funext fun a => Fin.ext (by match a with | ⟨0, _⟩ => rfl | ⟨1, _⟩ => rfl)
  rw [hl, hr]

/-- Entry `(e, 0)` of the output contraction: row `e` of the last activations against the one column of the output weights. -/
theorem v37_at (e : Fin 1000000) :
    val_main_v37 (F := Ideal) x0 x1 x2 x3 x4 x5 x6 x7 x8 x9 x11 x12 (ix2 e (0 : Fin 1))
      = ∑ k : Fin 128, val_main_v36 (F := Ideal) x0 x1 x2 x3 x4 x5 x6 x7 x8 x11 x12 (ix2 e k) * x9 (ix2 k (0 : Fin 1)) := by
  rw [val_main_v37_apply]
  refine Finset.sum_congr rfl fun k _ => ?_
  have hl : lidx_main_v37 (ix2 e (0 : Fin 1)) k = ix2 e k :=
    funext fun a => Fin.ext (by match a with | ⟨0, _⟩ => rfl | ⟨1, _⟩ => rfl)
  have hr : ridx_main_v37 (ix2 e (0 : Fin 1)) k = ix2 k (0 : Fin 1) :=
    funext fun a => Fin.ext (by match a with | ⟨0, _⟩ => rfl | ⟨1, _⟩ => rfl)
  rw [hl, hr]

/-- The input bias broadcast over the edges reads entry `j` of the bias at `(e, j)`. -/
theorem v25_at (e : Fin 1000000) (j : Fin 128) : val_main_v25 (F := Ideal) x4 (ix2 e j) = x4 (ix1 j) := by
  have h : idx_main_v24 (idx_main_v25 (ix2 e j)) = ix1 j :=
    funext fun a => Fin.ext (by match a with | ⟨0, _⟩ => rfl)
  rw [val_main_v25_apply, val_main_v24_apply, h]

/-- The first hidden bias broadcast over the edges reads entry `j` of the bias at `(e, j)`. -/
theorem v30_at (e : Fin 1000000) (j : Fin 128) : val_main_v30 (F := Ideal) x6 (ix2 e j) = x6 (ix1 j) := by
  have h : idx_main_v29 (idx_main_v30 (ix2 e j)) = ix1 j :=
    funext fun a => Fin.ext (by match a with | ⟨0, _⟩ => rfl)
  rw [val_main_v30_apply, val_main_v29_apply, h]

/-- The second hidden bias broadcast over the edges reads entry `j` of the bias at `(e, j)`. -/
theorem v35_at (e : Fin 1000000) (j : Fin 128) : val_main_v35 (F := Ideal) x8 (ix2 e j) = x8 (ix1 j) := by
  have h : idx_main_v34 (idx_main_v35 (ix2 e j)) = ix1 j :=
    funext fun a => Fin.ext (by match a with | ⟨0, _⟩ => rfl)
  rw [val_main_v35_apply, val_main_v34_apply, h]

/-- The output bias broadcast over the edges reads its one entry at `(e, 0)`. -/
theorem v39_at (e : Fin 1000000) : val_main_v39 (F := Ideal) x10 (ix2 e (0 : Fin 1)) = x10 (ix1 (0 : Fin 1)) := by
  have h : idx_main_v38 (idx_main_v39 (ix2 e (0 : Fin 1))) = ix1 (0 : Fin 1) :=
    funext fun a => Fin.ext (by match a with | ⟨0, _⟩ => rfl)
  rw [val_main_v39_apply, val_main_v38_apply, h]

/-! ## The layers on one edge -/

/-- The eight weight arrays as the specification's record. -/
abbrev wts : Weights := ⟨x3, x4, x5, x6, x7, x8, x9, x10⟩

/-- The gathered latents of edge `e`. -/
abbrev latRow (e : Fin 1000000) : Fin 128 → EReal := fun k => val_main_v21 (F := Ideal) x2 x12 (ix2 e k)

/-- The relative position of edge `e`: gathered target position minus gathered source position. -/
abbrev relPos (e : Fin 1000000) : Fin 3 → EReal := fun k =>
  (val_main_v6 (F := Ideal) x1 x11 (ix2 e k) : EReal) - (val_main_v13 (F := Ideal) x0 x12 (ix2 e k) : EReal)

/-- Entry `(e, j)` after the input bias is output `j` of the input layer on edge `e`. -/
theorem v26_at (e : Fin 1000000) (j : Fin 128) :
    val_main_v26 (F := Ideal) x0 x1 x2 x3 x4 x11 x12 (ix2 e j)
      = layerIn (wts x3 x4 x5 x6 x7 x8 x9 x10) (latRow x2 x12 e) (relPos x0 x1 x11 x12 e) j := by
  rw [val_main_v26_apply, v23_at, v25_at, sum_first128_last3]
  simp only [concat_latents, concat_relpos, val_main_v14_apply, Ideal.addf_def, Ideal.subf_def, layerIn]

/-- Entry `(e, j)` after the first `max · 0`. -/
theorem v27_at (e : Fin 1000000) (j : Fin 128) :
    val_main_v27 (F := Ideal) x0 x1 x2 x3 x4 x11 x12 (ix2 e j)
      = max (layerIn (wts x3 x4 x5 x6 x7 x8 x9 x10) (latRow x2 x12 e) (relPos x0 x1 x11 x12 e) j) 0 := by
  rw [val_main_v27_apply, v26_at x0 x1 x2 x3 x4 x5 x6 x7 x8 x9 x10 x11 x12, val_main_call0_v0_apply, val_main_call0_cst_apply]
  simp only [Ideal.maximumf_def, Ideal.ofBits_def, Ideal.ofBits_zero_f32]

/-- Entry `(e, j)` after the first hidden bias is output `j` of the first hidden layer. -/
theorem v31_at (e : Fin 1000000) (j : Fin 128) :
    val_main_v31 (F := Ideal) x0 x1 x2 x3 x4 x5 x6 x11 x12 (ix2 e j)
      = layer x5 x6 (fun a => max (layerIn (wts x3 x4 x5 x6 x7 x8 x9 x10) (latRow x2 x12 e) (relPos x0 x1 x11 x12 e) a) 0) j := by
  rw [val_main_v31_apply, v28_at, v30_at]
  simp only [v27_at x0 x1 x2 x3 x4 x5 x6 x7 x8 x9 x10 x11 x12, Ideal.addf_def, layer]

/-- Entry `(e, j)` after the second `max · 0`. -/
theorem v32_at (e : Fin 1000000) (j : Fin 128) :
    val_main_v32 (F := Ideal) x0 x1 x2 x3 x4 x5 x6 x11 x12 (ix2 e j)
      = max (layer x5 x6 (fun a => max (layerIn (wts x3 x4 x5 x6 x7 x8 x9 x10) (latRow x2 x12 e) (relPos x0 x1 x11 x12 e) a) 0) j) 0 := by
  rw [val_main_v32_apply, v31_at x0 x1 x2 x3 x4 x5 x6 x7 x8 x9 x10 x11 x12, val_main_call1_v0_apply, val_main_call1_cst_apply]
  simp only [Ideal.maximumf_def, Ideal.ofBits_def, Ideal.ofBits_zero_f32]

/-- Entry `(e, j)` after the second hidden bias is activation `j` entering the output layer. -/
theorem v36_at (e : Fin 1000000) (j : Fin 128) :
    val_main_v36 (F := Ideal) x0 x1 x2 x3 x4 x5 x6 x7 x8 x11 x12 (ix2 e j)
      = hidden (wts x3 x4 x5 x6 x7 x8 x9 x10) (latRow x2 x12 e) (relPos x0 x1 x11 x12 e) j := by
  rw [val_main_v36_apply, v33_at, v35_at]
  simp only [v32_at x0 x1 x2 x3 x4 x5 x6 x7 x8 x9 x10 x11 x12, Ideal.addf_def, Cert.EdgeNet.hidden, layer]

/-- Entry `(e, 0)` after the output bias is the logit of edge `e`. -/
theorem v40_at (e : Fin 1000000) :
    val_main_v40 (F := Ideal) x0 x1 x2 x3 x4 x5 x6 x7 x8 x9 x10 x11 x12 (ix2 e (0 : Fin 1))
      = logit (wts x3 x4 x5 x6 x7 x8 x9 x10) (latRow x2 x12 e) (relPos x0 x1 x11 x12 e) := by
  rw [val_main_v40_apply, v37_at, v39_at]
  simp only [v36_at x0 x1 x2 x3 x4 x5 x6 x7 x8 x9 x10 x11 x12, Ideal.addf_def, logit]

/-! ## The two results -/

/-- THE FIRST RESULT: entry `e` of the reference's prediction vector is the logit of edge `e` computed from the reference's
    own gathered latents, target positions and source positions. -/
theorem pred_eq (e : Fin 1000000) :
    val_main_v41 (F := Ideal) x0 x1 x2 x3 x4 x5 x6 x7 x8 x9 x10 x11 x12 (ix1 e)
      = zOf (M := 1000000) (⟨x3, x4, x5, x6, x7, x8, x9, x10⟩ : Weights) (val_main_v21 (F := Ideal) x2 x12)
          (val_main_v6 (F := Ideal) x1 x11) (val_main_v13 (F := Ideal) x0 x12) e := by
  have h : idx_main_v41 (ix1 e) = ix2 e (0 : Fin 1) :=
    funext fun a => Fin.ext (by match a with | ⟨0, _⟩ => exact Nat.div_one _ | ⟨1, _⟩ => rfl)
  rw [val_main_v41_apply, h]
  exact v40_at x0 x1 x2 x3 x4 x5 x6 x7 x8 x9 x10 x11 x12 e

/-- The loss of edge `e` as the reference computes it is the stable binary cross entropy of its logit and its converted
    occupancy. -/
theorem v58_at (e : Fin 1000000) :
    val_main_v58 (F := Ideal) x0 x1 x2 x3 x4 x5 x6 x7 x8 x9 x10 x11 x12 x13 (ix1 e)
      = bce (zOf (M := 1000000) (⟨x3, x4, x5, x6, x7, x8, x9, x10⟩ : Weights) (val_main_v21 (F := Ideal) x2 x12)
          (val_main_v6 (F := Ideal) x1 x11) (val_main_v13 (F := Ideal) x0 x12) e) (val_main_v49 (F := Ideal) x11 x13 (ix1 e)) := by
  rw [val_main_v58_apply, val_main_v53_apply, val_main_v51_apply, val_main_v52_apply, val_main_v57_apply, val_main_v56_apply,
    val_main_v55_apply, val_main_v54_apply, val_main_v50_apply, val_main_cst_apply, pred_eq]
  simp only [Ideal.addf_def, Ideal.subf_def, Ideal.mulf_def, Ideal.maximumf_def, Ideal.hostUnary_log1p_def,
    Ideal.hostUnary_exp_def, Ideal.hostNegf_def, Ideal.negf_def, Ideal.hostAbsf_def, Ideal.absf_def, Ideal.ofBits_def,
    Ideal.ofBits_zero_f32, bce]

/-- THE SECOND RESULT: the reference's scalar is the mean loss of the specification on the reference's own gathered latents,
    target positions, source positions and converted occupancies. -/
theorem loss_eq (i : S_.Idx) :
    val_main_v60 (F := Ideal) x0 x1 x2 x3 x4 x5 x6 x7 x8 x9 x10 x11 x12 x13 i
      = meanLoss (⟨x3, x4, x5, x6, x7, x8, x9, x10⟩ : Weights) (val_main_v21 (F := Ideal) x2 x12)
          (val_main_v6 (F := Ideal) x1 x11) (val_main_v13 (F := Ideal) x0 x12) (val_main_v49 (F := Ideal) x11 x13) := by
  have hs : ∑ j : S1000000.Idx, val_main_v58 (F := Ideal) x0 x1 x2 x3 x4 x5 x6 x7 x8 x9 x10 x11 x12 x13 j
      = ∑ e : Fin 1000000, bce (zOf (M := 1000000) (⟨x3, x4, x5, x6, x7, x8, x9, x10⟩ : Weights)
          (val_main_v21 (F := Ideal) x2 x12) (val_main_v6 (F := Ideal) x1 x11) (val_main_v13 (F := Ideal) x0 x12) e)
          (val_main_v49 (F := Ideal) x11 x13 (ix1 e)) :=
    (sum_over_coord _).trans (Finset.sum_congr rfl fun e _ => v58_at x0 x1 x2 x3 x4 x5 x6 x7 x8 x9 x10 x11 x12 x13 e)
  rw [val_main_v60_apply, val_main_v59_apply, hs, val_main_cst_8_apply, val_main_cst_7_apply]
  simp only [Ideal.hostDivf_def, Ideal.ofBits_def, meanLoss]

end Args

end Cert.ReferenceIdeal.RefValue

end
-- ==== Proof.RefRows.lean ====
/-
  THE REFERENCE PROGRAM'S FOUR ROW LOOKUPS, READ AT AN EDGE.

  The reference program looks rows up in four tables: the latent rows (128 wide) and the source positions (3 wide) by the
  source index array, the target positions (3 wide) and the occupancy entries by the target index array. Each lookup is a
  gather of whole rows whose start-index column is computed from the index array `v` entry by entry, a negative entry
  counting from the end: `select (v < 0) (v + N) v`, compared signed, with `N` the table's row count, then laid out as a column
  `[1000000] → [1000000, 1]`. The general reading of such a gather says that result row `e` is the table's row
  "start index of `e`, read signed and clamped into `[0, N − 1]`". Chaining the generated readings of the entrywise
  operations turns the start index of `e` into `normIdx N (v e)`, and the clamped row is then `rowOf N _ N (v e)` by
  definition. The occupancy lookup is followed by the conversion of the integer entry to a float, read entrywise.
-/
import proofs.«121731_j87789131530736_2_alg».proof.Proof.Gen.ReferenceIdeal.Read
import proofs.«121731_j87789131530736_2_alg».proof.Proof.Rows
import proofs.«121731_j87789131530736_2_alg».proof.Proof.LibGatherRows
import Idealize.ShloMosaic.Lib.Pipeline.Value
import Idealize.ShloMosaic.Lib.ValueIdx

noncomputable section

namespace Cert.ReferenceIdeal.RefRows

open Cert.EdgeNet Cert.ReferenceIdeal Cert.ReferenceIdeal.Gen Cert.ReferenceIdeal.Read Idealize.ShloMosaic
  Idealize.ShloMosaic.ValueIdx Idealize.ShloMosaic.TcCoe

/-! ## The start-index columns, read at an edge

Each column is the layout `[1000000] → [1000000, 1]` of `select (v < 0) (v + N) v`; entry `(e, 0)` of the column is the
entry `e` of the vector, and the vector's entry is read through the comparison, the addition and the two constants. -/

/-- The start-index column of this gather, read at edge `e`: the edge's entry of the index array with a negative entry
    wrapped by the table's row count. -/
theorem start_v5 (x11 : (⟨S1000000, .i32⟩ : BufTy).Contents (Elt Ideal)) (e : Fin 1000000) :
    val_main_v5 (F := Ideal) x11 (ix2 e (0 : Fin 1)) = normIdx 50000#32 (x11 (ix1 e)) := by
  have hidx : idx_main_v5 (ix2 e (0 : Fin 1)) = ix1 e := by
    funext d
    match d with
    | ⟨0, _⟩ => rfl
  rw [val_main_v5_apply, val_main_v4_apply, val_main_v1_apply, val_main_v3_apply, val_main_v0_apply, val_main_v2_apply, val_main_c_apply, val_main_c_0_apply, hidx]
  rfl

/-- The start-index column of this gather, read at edge `e`: the edge's entry of the index array with a negative entry
    wrapped by the table's row count. -/
theorem start_v12 (x12 : (⟨S1000000, .i32⟩ : BufTy).Contents (Elt Ideal)) (e : Fin 1000000) :
    val_main_v12 (F := Ideal) x12 (ix2 e (0 : Fin 1)) = normIdx 100000#32 (x12 (ix1 e)) := by
  have hidx : idx_main_v12 (ix2 e (0 : Fin 1)) = ix1 e := by
    funext d
    match d with
    | ⟨0, _⟩ => rfl
  rw [val_main_v12_apply, val_main_v11_apply, val_main_v8_apply, val_main_v10_apply, val_main_v7_apply, val_main_v9_apply, val_main_c_1_apply, val_main_c_2_apply, hidx]
  rfl

/-- The start-index column of this gather, read at edge `e`: the edge's entry of the index array with a negative entry
    wrapped by the table's row count. -/
theorem start_v20 (x12 : (⟨S1000000, .i32⟩ : BufTy).Contents (Elt Ideal)) (e : Fin 1000000) :
    val_main_v20 (F := Ideal) x12 (ix2 e (0 : Fin 1)) = normIdx 100000#32 (x12 (ix1 e)) := by
  have hidx : idx_main_v20 (ix2 e (0 : Fin 1)) = ix1 e := by
    funext d
    match d with
    | ⟨0, _⟩ => rfl
  rw [val_main_v20_apply, val_main_v19_apply, val_main_v16_apply, val_main_v18_apply, val_main_v15_apply, val_main_v17_apply, val_main_c_3_apply, val_main_c_4_apply, hidx]
  rfl

/-- The start-index column of this gather, read at edge `e`: the edge's entry of the index array with a negative entry
    wrapped by the table's row count. -/
theorem start_v47 (x11 : (⟨S1000000, .i32⟩ : BufTy).Contents (Elt Ideal)) (e : Fin 1000000) :
    val_main_v47 (F := Ideal) x11 (ix2 e (0 : Fin 1)) = normIdx 50000#32 (x11 (ix1 e)) := by
  have hidx : idx_main_v47 (ix2 e (0 : Fin 1)) = ix1 e := by
    funext d
    match d with
    | ⟨0, _⟩ => rfl
  rw [val_main_v47_apply, val_main_v46_apply, val_main_v43_apply, val_main_v45_apply, val_main_v42_apply, val_main_v44_apply, val_main_c_5_apply, val_main_c_6_apply, hidx]
  rfl

/-! ## The four lookups -/

/-- THE LATENT ROWS: entry `(e, k)` of the gathered latents is entry `k` of the latent table's row `rowOf 100000 _ 100000 (x12 e)`. -/
theorem lat_row (x2 : (⟨S100000x128, .f32⟩ : BufTy).Contents (Elt Ideal)) (x12 : (⟨S1000000, .i32⟩ : BufTy).Contents (Elt Ideal))
    (e : Fin 1000000) (k : Fin 128) :
    val_main_v21 (F := Ideal) x2 x12 (ix2 e k)
      = x2 (ix2 (rowOf 100000 (by decide) 100000#32 (x12 (ix1 e))) k) := by
  unfold val_main_v21
  refine (Cert.Lib.gather_rows_apply (N := 100000) (D := 128) (M := 1000000) (by decide)
    Cert.ReferenceIdeal.Gen.gather_S100000x128_S1000000x1_S1000000x128_1_0_n_n_0_1_1128_wf x2 (val_main_v20 (F := Ideal) x12) e k).trans ?_
  refine congrArg (fun r : Fin 100000 => x2 (ix2 r k)) (Fin.ext ?_)
  exact congrArg (fun v : BitVec 32 => min v.toInt.toNat (100000 - 1)) (start_v20 x12 e)

/-- THE TARGET POSITIONS: entry `(e, k)` of the first gathered positions is entry `k` of the 50000-row position table's row `rowOf 50000 _ 50000 (x11 e)`. -/
theorem pt_row (x1 : (⟨S50000x3, .f32⟩ : BufTy).Contents (Elt Ideal)) (x11 : (⟨S1000000, .i32⟩ : BufTy).Contents (Elt Ideal))
    (e : Fin 1000000) (k : Fin 3) :
    val_main_v6 (F := Ideal) x1 x11 (ix2 e k)
      = x1 (ix2 (rowOf 50000 (by decide) 50000#32 (x11 (ix1 e))) k) := by
  unfold val_main_v6
  refine (Cert.Lib.gather_rows_apply (N := 50000) (D := 3) (M := 1000000) (by decide)
    Cert.ReferenceIdeal.Gen.gather_S50000x3_S1000000x1_S1000000x3_1_0_n_n_0_1_13_wf x1 (val_main_v5 (F := Ideal) x11) e k).trans ?_
  refine congrArg (fun r : Fin 50000 => x1 (ix2 r k)) (Fin.ext ?_)
  exact congrArg (fun v : BitVec 32 => min v.toInt.toNat (50000 - 1)) (start_v5 x11 e)

/-- THE SOURCE POSITIONS: entry `(e, k)` of the second gathered positions is entry `k` of the 100000-row position table's row `rowOf 100000 _ 100000 (x12 e)`. -/
theorem ps_row (x0 : (⟨S100000x3, .f32⟩ : BufTy).Contents (Elt Ideal)) (x12 : (⟨S1000000, .i32⟩ : BufTy).Contents (Elt Ideal))
    (e : Fin 1000000) (k : Fin 3) :
    val_main_v13 (F := Ideal) x0 x12 (ix2 e k)
      = x0 (ix2 (rowOf 100000 (by decide) 100000#32 (x12 (ix1 e))) k) := by
  unfold val_main_v13
  refine (Cert.Lib.gather_rows_apply (N := 100000) (D := 3) (M := 1000000) (by decide)
    Cert.ReferenceIdeal.Gen.gather_S100000x3_S1000000x1_S1000000x3_1_0_n_n_0_1_13_wf x0 (val_main_v12 (F := Ideal) x12) e k).trans ?_
  refine congrArg (fun r : Fin 100000 => x0 (ix2 r k)) (Fin.ext ?_)
  exact congrArg (fun v : BitVec 32 => min v.toInt.toNat (100000 - 1)) (start_v12 x12 e)

/-- The gathered occupancy entry of edge `e`, before its conversion to a float: the occupancy table's entry
    `rowOf 50000 _ 50000 (x11 e)`. -/
theorem occ_elem (x11 : (⟨S1000000, .i32⟩ : BufTy).Contents (Elt Ideal)) (x13 : (⟨S50000, .i32⟩ : BufTy).Contents (Elt Ideal)) (e : Fin 1000000) :
    val_main_v48 (F := Ideal) x11 x13 (ix1 e) = x13 (ix1 (rowOf 50000 (by decide) 50000#32 (x11 (ix1 e)))) := by
  unfold val_main_v48
  refine (Cert.Lib.gather_elems_apply (N := 50000) (M := 1000000) (by decide)
    Cert.ReferenceIdeal.Gen.gather_S50000_S1000000x1_S1000000_n_0_n_n_0_1_1_wf x13 (val_main_v47 (F := Ideal) x11) e).trans ?_
  refine congrArg (fun r : Fin 50000 => x13 (ix1 r)) (Fin.ext ?_)
  exact congrArg (fun v : BitVec 32 => min v.toInt.toNat (50000 - 1)) (start_v47 x11 e)

/-- THE OCCUPANCY: the occupancy of edge `e` is the occupancy table's integer entry `rowOf 50000 _ 50000 (x11 e)`, converted
    to a float. -/
theorem occ_row (x11 : (⟨S1000000, .i32⟩ : BufTy).Contents (Elt Ideal)) (x13 : (⟨S50000, .i32⟩ : BufTy).Contents (Elt Ideal)) (e : Fin 1000000) :
    val_main_v49 (F := Ideal) x11 x13 (ix1 e)
      = FloatOps.sitofp (F := Ideal) .f32 (x13 (ix1 (rowOf 50000 (by decide) 50000#32 (x11 (ix1 e))))) := by
  rw [val_main_v49_apply, occ_elem]

end Cert.ReferenceIdeal.RefRows

end
-- ==== Proof.LossBridge.lean ====
/-
  From the padded, masked, block-wise and replicated loss sum to the mean over the edges, on the extended reals.

  The 1000000 edges are padded to 1003520 = 245 · 4096 slots. Every slot's loss is multiplied by a mask that is 1 on the
  first 1000000 slots and 0 on the padding; in the extended reals `x * 1 = x` and `x * 0 = 0` hold for every `x`, the
  infinities included, and addition is commutative and associative, so the masked sum over all slots is the sum over the
  edges with no finiteness assumption. The slots are summed in 245 blocks of 4096, and every block sum is written
  8 · 128 = 1024 times, so the sum of the replicated array is 1024 times the sum over the edges. Dividing by
  1.024e9 = 1024 · 1.0e6 therefore gives what dividing the plain sum by 1.0e6 gives: for a real sum by arithmetic, and for
  an infinite sum because both sides are the same infinity (the factors are positive).

  Besides that, three small facts used next to it: a sum over 131 rows splits into rows 0 … 127 and rows 128 … 130; a sum
  over a rank-1 index set is the sum over its coordinate; and `0 - x = -x`.
-/
import proofs.«121731_j87789131530736_2_alg».proof.Proof.Spec
import Idealize.ShloMosaic.PureOps.Ideal.Laws

noncomputable section

namespace Cert.EdgeNet

open Idealize.ShloMosaic Idealize.ShloMosaic.ValueIdx

/-! ## Three small facts -/

/-- A sum over 131 rows is the sum over rows 0 … 127 plus the sum over rows 128 … 130. -/
theorem sum_split_131 (f : Fin 131 → EReal) :
    ∑ k : Fin 131, f k = (∑ k : Fin 128, f ⟨k.val, by omega⟩) + ∑ k : Fin 3, f ⟨128 + k.val, by omega⟩ := by
  exact Fin.sum_univ_add (a := 128) (b := 3) (fun k => f k)

/-- A rank-1 index set is its coordinate's range … -/
def rank1Equiv {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → EReal) :
    ∑ j : (⟨1, ![n]⟩ : Shape).Idx, f j = ∑ e : Fin n, f (ix1 e) := by
  rw [← Equiv.sum_comp (rank1Equiv (n := n)).symm f]
  rfl

/-- Subtracting from zero is negating, at the infinities too. -/
theorem zero_sub_eq_neg (x : EReal) : (0 : EReal) - x = -x := by
  rw [sub_eq_add_neg, zero_add]

/-! ## The two divisors -/

/-- The word of `1.0e6` denotes the real `1000000`: `(2^23 + 7611392) · 2^(146 - 127 - 23) = 16000000 / 16`. -/
theorem ofBits_1e6 : Ideal.ofBits .f32 0x49742400#32 = ((1000000 : ℝ) : EReal) := by
  simp [Ideal.ofBits, Ideal.ieee, -EReal.coe_mul]; norm_num

/-- The word of `1.024e9` denotes the real `1024000000`: `(2^23 + 7611392) · 2^(156 - 127 - 23) = 16000000 · 64`. -/
theorem ofBits_1024e6 : Ideal.ofBits .f32 0x4E742400#32 = ((1024000000 : ℝ) : EReal) := by
  simp [Ideal.ofBits, Ideal.ieee, -EReal.coe_mul]; norm_num

/-! ## Re-indexing the sums -/

/-- A rank-3 index set is the product of its three coordinate ranges … -/
def rank3Equiv {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_rank3 {n0 n1 n2 : Nat} (f : (⟨3, ![n0, n1, n2]⟩ : Shape).Idx → EReal) :
    ∑ i, f i = ∑ a : Fin n0, ∑ b : Fin n1, ∑ c : Fin n2, f (ix3 a b c) := by
  rw [← Equiv.sum_comp (rank3Equiv (n0 := n0) (n1 := n1) (n2 := n2)).symm f, Fintype.sum_prod_type]
  refine Finset.sum_congr rfl fun a _ => ?_
  rw [Fintype.sum_prod_type]
  rfl

/-- Slot `e'` of the 1003520 is slot `e' % 4096` of block `e' / 4096`. -/
def blockEquiv : Fin 245 × Fin 4096 ≃ Fin 1003520 where
  toFun p := ⟨4096 * p.1.val + p.2.val, by omega⟩
  invFun e := (⟨e.val / 4096, by omega⟩, ⟨e.val % 4096, by omega⟩)
  left_inv p := by
    obtain ⟨i, r⟩ := p
    refine Prod.ext (Fin.ext ?_) (Fin.ext ?_)
    · show (4096 * i.val + r.val) / 4096 = i.val
      omega
    · show (4096 * i.val + r.val) % 4096 = r.val
      omega
  right_inv e := by
    refine Fin.ext ?_
    show 4096 * (e.val / 4096) + e.val % 4096 = e.val
    omega

/-- Summing block by block is summing over all slots. -/
theorem sum_blocks (h : Fin 1003520 → EReal) :
    ∑ i : Fin 245, ∑ r : Fin 4096, h ⟨4096 * i.val + r.val, by omega⟩ = ∑ e' : Fin 1003520, h e' := by
  rw [← Equiv.sum_comp blockEquiv h, Fintype.sum_prod_type]
  rfl

/-- The masked sum over all slots is the sum over the edges: the mask is 1 on the first 1000000 slots, where the slot holds
    the edge's value, and 0 on the 3520 slots of padding. -/
theorem sum_masked (f : Fin 1000000 → EReal) (g mask : Fin 1003520 → EReal)
    (hg : ∀ e : Fin 1000000, g ⟨e.val, by omega⟩ = f e)
    (hmask : ∀ e' : Fin 1003520, mask e' = if e'.val < 1000000 then 1 else 0) :
    ∑ e' : Fin 1003520, g e' * mask e' = ∑ e : Fin 1000000, f e := by
  have hsplit : ∑ e' : Fin 1003520, g e' * mask e'
      = (∑ e : Fin 1000000, g ⟨e.val, by omega⟩ * mask ⟨e.val, by omega⟩)
        + ∑ t : Fin 3520, g ⟨1000000 + t.val, by omega⟩ * mask ⟨1000000 + t.val, by omega⟩ := by
    exact Fin.sum_univ_add (a := 1000000) (b := 3520) (fun k => g k * mask k)
  have h1 : ∀ e : Fin 1000000, g ⟨e.val, by omega⟩ * mask ⟨e.val, by omega⟩ = f e := by
    intro e
    have hm : mask ⟨e.val, by omega⟩ = 1 := by
      rw [hmask]
      exact if_pos e.isLt
    rw [hg e, hm, mul_one]
  have h2 : ∀ t : Fin 3520, g ⟨1000000 + t.val, by omega⟩ * mask ⟨1000000 + t.val, by omega⟩ = 0 := by
    intro t
    have hm : mask ⟨1000000 + t.val, by omega⟩ = 0 := by
      rw [hmask]
      refine if_neg ?_
      show ¬ (1000000 + t.val < 1000000)
      omega
    rw [hm, mul_zero]
  rw [hsplit, Finset.sum_congr rfl (fun e _ => h1 e), Finset.sum_congr rfl (fun t _ => h2 t),
    Finset.sum_const_zero, add_zero]

/-! ## The scalar identity -/

/-- A positive multiple of `⊥` is `⊥`. -/
theorem succ_nsmul_bot (n : ℕ) : (n + 1) • (⊥ : EReal) = ⊥ := by
  rw [succ_nsmul, EReal.add_bot]

/-- A positive multiple of `⊤` is `⊤`. -/
theorem succ_nsmul_top (n : ℕ) : (n + 1) • (⊤ : EReal) = ⊤ := by
  induction n with
  | zero => rw [Nat.zero_add, one_nsmul]
  | succ k ih => rw [succ_nsmul, ih, EReal.top_add_top]

/-- A multiple of a real is the real multiple. -/
theorem nsmul_coe (n : ℕ) (r : ℝ) : n • ((r : ℝ) : EReal) = (((n : ℝ) * r : ℝ) : EReal) := by
  rw [← EReal.coe_nsmul, nsmul_eq_mul]

/-- 1024 copies of a sum divided by `1024 · 10^6` is the sum divided by `10^6`, for every extended real. -/
theorem div_replicated (S : EReal) :
    Ideal.div (0 + 1024 • S) ((1024000000 : ℝ) : EReal) = Ideal.div (0 + S) ((1000000 : ℝ) : EReal) := by
  have h1 : (1024000000 : ℝ) ≠ 0 := by norm_num
  have h2 : (1000000 : ℝ) ≠ 0 := by norm_num
  have p1 : (0 : ℝ) < 1 / 1024000000 := by norm_num
  have p2 : (0 : ℝ) < 1 / 1000000 := by norm_num
  rw [Ideal.div_coe h1, Ideal.div_coe h2, zero_add, zero_add]
  induction S using EReal.rec with
  | bot =>
    rw [show (1024 : ℕ) = 1023 + 1 from rfl, succ_nsmul_bot, EReal.bot_mul_coe_of_pos p1,
      EReal.bot_mul_coe_of_pos p2]
  | coe r =>
    rw [nsmul_coe, ← EReal.coe_mul, ← EReal.coe_mul]
    congr 1
    push_cast
    ring
  | top =>
    rw [show (1024 : ℕ) = 1023 + 1 from rfl, succ_nsmul_top, EReal.top_mul_coe_of_pos p1,
      EReal.top_mul_coe_of_pos p2]

/-! ## The bridge -/

/-- The replicated block sums of the padded, masked losses, divided by the word of `1.024e9`, are the plain sum of the
    edges' losses divided by the word of `1.0e6`. -/
theorem loss_bridge (f : Fin 1000000 → EReal) (g mask : Fin 1003520 → EReal)
    (hg : ∀ e : Fin 1000000, g ⟨e.val, by omega⟩ = f e)
    (hmask : ∀ e' : Fin 1003520, mask e' = if e'.val < 1000000 then 1 else 0)
    (blockSum : Fin 245 → EReal)
    (hblock : ∀ i : Fin 245, blockSum i = ∑ r : Fin 4096, g ⟨4096 * i.val + r.val, by omega⟩ * mask ⟨4096 * i.val + r.val, by omega⟩)
    (L : (⟨3, ![245, 8, 128]⟩ : Shape).Idx → EReal)
    (hL : ∀ (i : Fin 245) (a : Fin 8) (b : Fin 128), L (ix3 i a b) = blockSum i) :
    Ideal.div (Ideal.ofBits .f32 0x00000000#32 + ∑ j, L j) (Ideal.ofBits .f32 0x4E742400#32)
      = Ideal.div (Ideal.ofBits .f32 0x00000000#32 + ∑ e : Fin 1000000, f e) (Ideal.ofBits .f32 0x49742400#32) := by
  have hrep : ∀ i : Fin 245, (∑ a : Fin 8, ∑ b : Fin 128, L (ix3 i a b)) = 1024 • blockSum i := by
    intro i
    simp only [hL, Finset.sum_const, Finset.card_univ, Fintype.card_fin, smul_smul]
    rfl
  have hsumL : ∑ j, L j = 1024 • ∑ i : Fin 245, blockSum i := by
    rw [sum_rank3 L, Finset.sum_congr rfl (fun i _ => hrep i), Finset.sum_nsmul]
  have hblocks : ∑ i : Fin 245, blockSum i = ∑ e : Fin 1000000, f e :=
    calc ∑ i : Fin 245, blockSum i
        = ∑ i : Fin 245, ∑ r : Fin 4096,
            g ⟨4096 * i.val + r.val, by omega⟩ * mask ⟨4096 * i.val + r.val, by omega⟩ :=
          Finset.sum_congr rfl (fun i _ => hblock i)
      _ = ∑ e' : Fin 1003520, g e' * mask e' := sum_blocks (fun e' => g e' * mask e')
      _ = ∑ e : Fin 1000000, f e := sum_masked f g mask hg hmask
  rw [hsumL, hblocks, ofBits_1024e6, ofBits_1e6, Ideal.ofBits_zero_f32]
  exact div_replicated _

end Cert.EdgeNet

end
-- ==== Proof.Bridge.lean ====
/-
  The kernel program's two results are the specification of the reference's own gathered arrays.

  For an edge `e < 1000000` the padded index arrays hold the reference's indices, so the padded edge `e` gathers the same
  latent row, the same two position rows and the same occupancy as the reference's edge `e`: the logits agree entry by entry.
  The loss: the padded edges from 1000000 on are multiplied by the mask 0 and the others by 1, the 245 block sums regroup the
  sum over the edges, every block sum is stored 8 · 128 = 1024 times, and the divisor 1.024e9 is 1024 times the
  reference's 1.0e6.
-/
import proofs.«121731_j87789131530736_2_alg».proof.Proof.KRun
import proofs.«121731_j87789131530736_2_alg».proof.Proof.RefValue
import proofs.«121731_j87789131530736_2_alg».proof.Proof.RefRows
import proofs.«121731_j87789131530736_2_alg».proof.Proof.LossBridge

noncomputable section

open Idealize.ShloMosaic Idealize.ShloMosaic.TcCoe Idealize.SL.Sem Idealize.ShloMosaic.ValueIdx

namespace Cert.Proof.Bridge

open Cert.EdgeNet Cert.KernelIdeal.Blocks Cert.KernelIdeal.KRun

variable (m : (ℓ : Loc Cert.KernelIdeal.nD Cert.KernelIdeal.τ Cert.KernelIdeal.sig) → Buf (Elt Ideal) ℓ) (c : Dev Cert.KernelIdeal.nD)

/-- The reference's gathered latents, of the kernel program's argument arrays. -/
abbrev LAT : Arr2 1000000 128 := Cert.ReferenceIdeal.Read.val_main_v21 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg12))
/-- The reference's gathered target positions. -/
abbrev PT : Arr2 1000000 3 := Cert.ReferenceIdeal.Read.val_main_v6 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg11))
/-- The reference's gathered source positions. -/
abbrev PS : Arr2 1000000 3 := Cert.ReferenceIdeal.Read.val_main_v13 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg12))
/-- The reference's gathered occupancies, converted. -/
abbrev OCC : Arr1 1000000 := Cert.ReferenceIdeal.Read.val_main_v49 (F := Ideal) (m ((c.tc : Thread Cert.KernelIdeal.nD Cert.KernelIdeal.τ).loc Cert.KernelIdeal.main_arg11)) (m ((c.tc : Thread Cert.KernelIdeal.nD Cert.KernelIdeal.τ).loc Cert.KernelIdeal.main_arg13))

/-- Padded edge `e < 1000000` has the logit of the reference's edge `e`. -/
theorem pred_bridge (e : Fin 1000000) :
    zP m c ⟨e.val, by omega⟩ = zOf (W m c) (LAT m c) (PT m c) (PS m c) e := by
  unfold zP zOf
  refine congrArg₂ (logit (W m c)) (funext fun k => ?_) (funext fun k => ?_)
  · show (Cert.KernelIdeal.GenP.V m c Cert.KernelIdeal.main_v9 : Cert.KernelIdeal.S1003520x128.Idx → EReal) (ix2 _ k) = _
    rw [V_eq]
    exact (Cert.KernelIdeal.HostIn.lat_row m c e k).trans (Cert.ReferenceIdeal.RefRows.lat_row _ _ e k).symm
  · show (Cert.KernelIdeal.GenP.V m c Cert.KernelIdeal.main_v25 : Cert.KernelIdeal.S1003520x3.Idx → EReal) (ix2 _ k) = _
    rw [V_eq, Cert.KernelIdeal.HostIn.pos_row m c e k]
    exact congrArg₂ (fun a b : EReal => a - b) (Cert.ReferenceIdeal.RefRows.pt_row _ _ e k).symm (Cert.ReferenceIdeal.RefRows.ps_row _ _ e k).symm

/-- Padded edge `e < 1000000` has the occupancy of the reference's edge `e`. -/
theorem occ_bridge (e : Fin 1000000) : occAt m c ⟨e.val, by omega⟩ = OCC m c (ix1 e) := by
  show (Cert.KernelIdeal.GenP.V m c Cert.KernelIdeal.main_v34 : Cert.KernelIdeal.S1003520x1.Idx → EReal) (ix2 _ (0 : Fin 1)) = _
  rw [V_eq]
  exact (Cert.KernelIdeal.HostIn.occ_row m c e).trans (Cert.ReferenceIdeal.RefRows.occ_row _ _ e).symm

/-- The kernel program's first result is the reference's logits. -/
theorem pred_eq (j : Cert.KernelIdeal.S1000000.Idx) :
    predK m c j = zOf (W m c) (LAT m c) (PT m c) (PS m c) ⟨(j 0).val, (j 0).isLt⟩ :=
  pred_bridge m c ⟨(j 0).val, (j 0).isLt⟩

/-- The kernel program's second result is the reference's mean loss. -/
theorem loss_eq (i : Cert.KernelIdeal.S_.Idx) :
    lossK m c i = meanLoss (W m c) (LAT m c) (PT m c) (PS m c) (OCC m c) := by
  unfold lossK meanLoss
  exact loss_bridge (fun e => bce (zOf (W m c) (LAT m c) (PT m c) (PS m c) e) (OCC m c (ix1 e)))
    (fun e' => bce (zP m c e') (occAt m c e')) (fun e' => if e'.val < 1000000 then (1 : EReal) else 0)
    (fun e => by
      show bce (zP m c ⟨e.val, _⟩) (occAt m c ⟨e.val, _⟩) = bce _ _
      rw [pred_bridge m c e, occ_bridge m c e])
    (fun _ => rfl) (blockLoss m c) (fun _ => rfl) (G13 m c) (fun _ _ _ => rfl)

end Cert.Proof.Bridge

end
-- ==== Proof.lean ====
/-
  The certificate of a fused edge network with a masked cross-entropy loss against its plain jnp form.

  Both programs gather, for each of 1000000 edges, a latent row, two position rows and an occupancy, run the rows through an
  input layer on "latents, then relative position", two hidden layers and an output layer, and return the logits and the mean
  binary cross entropy with logits. The kernel program pads the edges to 245 blocks of 4096, rounds the rows and weights to
  bf16 on the way into each matrix product (the identity on the extended reals), splits the input layer's product into its
  latent and position parts, computes each block's masked loss sum inside the call, stores it 1024 times, and divides the
  total by 1024 · 10^6; the reference concatenates, multiplies, and divides the plain sum by 10^6. On the extended reals the
  two are one function of the arguments: the split of a sum over 131 = 128 + 3 terms, `x · 1 = x`, `x · 0 = 0`, regrouping of
  a finite sum, and `(1024 · S) / (1024 · 10^6) = S / 10^6`, all of which hold at the infinities too, so the precondition is
  not used by the value claim.
  The three frames: the two kernel programs' are the launch-and-body run of the call around the host operations (a copy of the
  frame module with the grid coordinate bound), the reference's is its run with the results dropped. The ideal pass rewrote
  nothing, so `preserves` is `True`.
-/
import proofs.«121731_j87789131530736_2_alg».proof.Defs
import proofs.«121731_j87789131530736_2_alg».proof.Proof.Gen.Kernel
import proofs.«121731_j87789131530736_2_alg».proof.Proof.Gen.KernelIdeal
import proofs.«121731_j87789131530736_2_alg».proof.Proof.Gen.ReferenceIdeal
import proofs.«121731_j87789131530736_2_alg».proof.Proof.Gen.Pre_finite_inputs
import proofs.«121731_j87789131530736_2_alg».proof.Proof.KernelFrameP
import proofs.«121731_j87789131530736_2_alg».proof.Proof.KernelIdealFrameP
import proofs.«121731_j87789131530736_2_alg».proof.Proof.Gen.ReferenceIdeal.Run
import proofs.«121731_j87789131530736_2_alg».proof.Proof.Gen.ReferenceIdeal.Read
import proofs.«121731_j87789131530736_2_alg».proof.Proof.KRun
import proofs.«121731_j87789131530736_2_alg».proof.Proof.RefValue
import proofs.«121731_j87789131530736_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx Cert.EdgeNet

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

theorem preserves : Cert.preserves_Kernel_KernelIdeal := trivial

/-- Both programs end with the reference's logits and the reference's mean loss of the argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KRun.predK m c, fun c => Cert.KernelIdeal.KRun.lossK m c, Cert.KernelIdeal.KRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13⟩ := hagree c
  refine ⟨(h c).1.trans ?_, (h c).2.1.trans ?_, (h c).2.2⟩
  · refine (Cert.ReferenceIdeal.Read.val_main_v41_eq (F := Ideal) _ _ _ _ _ _ _ _ _ _ _ _ _).trans ?_
    rw [a0, a1, a2, a3, a4, a5, a6, a7, a8, a9, a10, a11, a12]
    funext j
    obtain ⟨e, rfl⟩ : ∃ e : Fin 1000000, j = ix1 e := ⟨j 0, eq_ix1 j⟩
    exact (Cert.ReferenceIdeal.RefValue.pred_eq _ _ _ _ _ _ _ _ _ _ _ _ _ e).trans (Cert.Proof.Bridge.pred_eq m c (ix1 e)).symm
  · refine (Cert.ReferenceIdeal.Read.val_main_v60_eq (F := Ideal) m' c).trans ?_
    rw [a0, a1, a2, a3, a4, a5, a6, a7, a8, a9, a10, a11, a12, a13]
    funext i
    exact (Cert.ReferenceIdeal.RefValue.loss_eq _ _ _ _ _ _ _ _ _ _ _ _ _ _ i).trans (Cert.Proof.Bridge.loss_eq m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
